-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .bf16⟩
  | .hbm, ⟨4, _⟩ => ⟨S1024x1024, .bf16⟩
  | .hbm, ⟨5, _⟩ => ⟨S1x1024, .f32⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x8192, .f32⟩
  | .hbm, ⟨8, _⟩ => ⟨S_, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KRuns.lean ====
/-
  What the three runs of the attention kernel's body share: the arrays as the region finds them (the three arguments
  after the two format changes and the re-laying of the entangling vector), the blocks the windows stage, the two
  conditions of the body (the first key tile of a query tile; the last one) decided over the 8 × 8 grid, where the
  output window is idle, and the names of the staging and scratch memrefs.
-/
import proofs.«127219_j65481071402447_2_alg».proof.Proof.Gen.Kernel.Launch
import proofs.«127219_j65481071402447_2_alg».proof.Proof.Gen.Kernel.Skeleton
import proofs.«127219_j65481071402447_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host operations, then the region, then the return. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The key tile is the first of its query tile (the second grid coordinate is 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The key tile is the last of its query tile (the second grid coordinate is 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last key tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last key tile it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024x1024 .f32 := (Memref.whole cc0_stg4_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
/-- The four scratch operands: the weighted sums, the running maximum, the running sum, the cached query tile. -/
abbrev scM0_0 : Memref sig .tc .vmem S1024x1024 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1024 .bf16 := Memref.whole cc0_scratch3
abbrev VS0_0 : View sig .tc .vmem S1024x1024 .f32 := scM0_0.view
abbrev VS0_1 : View sig .tc .vmem S1024x1 .f32 := scM0_1.view
abbrev VS0_2 : View sig .tc .vmem S1024x1 .f32 := scM0_2.view
abbrev VS0_3 : View sig .tc .vmem S1024x1024 .bf16 := scM0_3.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Attn

end
-- ==== Proof.KRunA.lean ====
/-
  The body's run at the first key tile of a query tile: the query tile is projected and cached, the running maximum,
  sum and weighted sums are reset and then updated with the tile; the output window is left as found.
-/
import proofs.«127219_j65481071402447_2_alg».proof.Proof.KRuns

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (first key tile, not the last): what the stores leave in the four scratch buffers, as pieces, with the body's triple. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .bf16) (harg10 : arg10.IsWhole) (hc0 : cond0_0 i) (hc1 : ¬cond0_1 i)
    (x0 : Vec F S1024x1024 .bf16) (x1 : Vec F S1024x1024 .bf16) (x2 : Vec F S1x1024 .f32) (x3 : Vec F S1024x1024 .bf16) :
    Σ' (LS0 : List (View.Piece (Elt F) S1024x1024 .f32)) (LS1 : List (View.Piece (Elt F) S1024x1 .f32)) (LS2 : List (View.Piece (Elt F) S1024x1 .f32)), { LS3 : List (View.Piece (Elt F) S1024x1024 .bf16) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Attn

end
-- ==== Proof.KRunB.lean ====
/-
  The body's run at a key tile that is neither the first nor the last of its query tile: the running maximum, sum and
  weighted sums the tile before left are updated with the tile; the cached query tile and the output window are left
  as found.
-/
import proofs.«127219_j65481071402447_2_alg».proof.Proof.KRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (neither first nor last key tile). -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .bf16) (harg10 : arg10.IsWhole) (hc0 : ¬cond0_0 i) (hc1 : ¬cond0_1 i)
    (x0 : Vec F S1024x1024 .bf16) (x1 : Vec F S1024x1024 .bf16) (x2 : Vec F S1x1024 .f32) (x3 : Vec F S1024x1024 .bf16) (xs0 : Vec F S1024x1024 .f32) (xs1 : Vec F S1024x1 .f32) (xs2 : Vec F S1024x1 .f32) (xs3 : Vec F S1024x1024 .bf16) :
    Σ' (LS0 : List (View.Piece (Elt F) S1024x1024 .f32)) (LS1 : List (View.Piece (Elt F) S1024x1 .f32)), { LS2 : List (View.Piece (Elt F) S1024x1 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.Kernel.Attn

end
-- ==== Proof.KRunC.lean ====
/-
  The body's run at the last key tile of a query tile: the running maximum, sum and weighted sums are updated with the
  tile, and the weighted sums over the running sum are stored into the output window.
-/
import proofs.«127219_j65481071402447_2_alg».proof.Proof.KRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (last key tile, not the first). -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .bf16) (harg10 : arg10.IsWhole) (hc0 : ¬cond0_0 i) (hc1 : cond0_1 i)
    (x0 : Vec F S1024x1024 .bf16) (x1 : Vec F S1024x1024 .bf16) (x2 : Vec F S1x1024 .f32) (x3 : Vec F S1024x1024 .bf16) (xs0 : Vec F S1024x1024 .f32) (xs1 : Vec F S1024x1 .f32) (xs2 : Vec F S1024x1 .f32) (xs3 : Vec F S1024x1024 .bf16) :
    Σ' (L4 : List (View.Piece (Elt F) S1024x1024 .f32)) (LS0 : List (View.Piece (Elt F) S1024x1024 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg10.read_unread _
    iexact HS3

end Cert.Kernel.Attn

end
-- ==== Proof.LibSharedFrame.lean ====
/-
  A one-region program whose input windows may read THE SAME array, with host operations before and after the
  region: the run from the launch to the end.

  When two windows of a pipeline stage blocks of one array, the array's buffer cannot be handed whole to each of
  them. It is held once, at the full share, before the region; at the region's entry its share is dealt among the
  windows on it (`hdeal`), each window then holds the array read-only at its part, and at the region's exit the parts
  are put together again (`hjoin` / `hdeal'`), so that the operations after the region find every unscoped buffer
  held whole at the full share, exactly as the operations before the region did. Those later operations may read
  anything unscoped and must write no array of the pipeline.

  The conclusion reads the final memory: each window's array at what the pipeline's write-backs leave in it (an
  input array: its entry contents), and every unscoped buffer that is no window's array at what the later operations
  compute from the contents at the region's exit.
-/
import Idealize.ShloMosaic.Lib.Pipeline.FrameSuffix

noncomputable section

namespace Cert.SharedFrame

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The contents of core `c`'s unscoped buffers after the later operations `opss`, run from the contents `W c` the
    region's exit leaves. -/
abbrev finalAt (W : Dev nD → Valuation τ sig Val) (opss : List (List (HloOp τ sig Val))) (c : Dev nD) (b : Ref sig .tc) :
    Buf Val ((c.tc : Thread nD τ).loc b) :=
  StableHlo.after opss.flatten (W c) (Proc.devRef .tc b)

/-- THE RUN. `hcell`, `hw`, `hne`, `harr`, `hstage`: the layout the launch decides (the arrays need not be distinct).
    `hmain`: @main is earlier operations, the region, the later operations `opss`. `V₀ c`: the contents at the region's
    entry; `W c`: at its exit, equal to `V₀ c` off the windows' arrays (`hWrest`). `hdeal`: the arrays' buffers, whole
    at the entry contents, make the proof data's arrays at entry; `hjoin` and `hdeal'`: at the exit the proof data's
    arrays and the buffers whole at `W c` are each other. The later operations touch TensorCore buffers only, allocate
    nothing, and write no array. -/
theorem θ_run_around_shared
    (hcell : Function.Injective (cellOf (nD := nD) (τ := τ) cfgs))
    (hw : WinFacts₀ (cfg).spec) (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hWrest : ∀ c, ∀ b ∈ restRefs sig (cfg).spec, W c (Proc.devRef .tc b) = V₀ c (Proc.devRef .tc b))
    (hdeal : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => W c (Proc.devRef .tc b)) : sProp 𝕄))
    (hdeal' : ∀ c, (arrBufs (cfg).spec c (fun b => W c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
        ∧ ∀ b ∈ restRefs sig (cfg).spec, r.2.mem ((c.tc : Thread nD τ).loc b) = finalAt W opss c b) := by
  classical
  -- the later operations write no array: an array's buffer holds after them what it held at the exit
  have hsame : ∀ c (w : Fin (cfg).W), StableHlo.after opss.flatten (W c) (Proc.devRef .tc (arrRef (cfg).spec w)) = W c (Proc.devRef .tc (arrRef (cfg).spec w)) :=
    fun c w => StableHlo.after_of_forall_not_mem _ _ fun op hop => by
      obtain ⟨ops, hops, hop⟩ := List.mem_flatten.mp hop
      exact hkeep ops hops op hop w
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells (pin (fun q => (cfgs q).toPCfg (Val := Val)) (fun q => (cfgs q).toPCfg_adm)) hcell') (launchToks (pin (fun q => (cfgs q).toPCfg (Val := Val)) (fun q => (cfgs q).toPCfg_adm)) hcell'))
    (hu₀ := by
      iintro Hu; imodintro
      isplitl [Hu]; · iapply (show (ownU _ : sProp 𝕄) ⊢ BI.own (emb₁ (initOf (cells (pin (fun q => (cfgs q).toPCfg (Val := Val)) (fun q => (cfgs q).toPCfg_adm)) hcell') (launchToks (pin (fun q => (cfgs q).toPCfg (Val := Val)) (fun q => (cfgs q).toPCfg_adm)) hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hdeal)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (finalAt W opss c))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      -- every unscoped buffer, whole at the exit contents
      have hall : iprop((dats p c).arrays ((dats p c).arrAt · (cfg).N)
            ∗ unscopedRestP (Ix := Unit) (Name := ℕ) (U := UR sig nD τ) (Lvl := ℕ) Prefetch.none (cfg).spec c (fun b => V₀ c (Proc.devRef .tc b)))
          ⊢ (StableHlo.held (c.tc : Thread nD τ) (ucRefs τ sig) (W c) : sProp 𝕄) := by
        rw [← unscopedBufs_held (Ix := Unit) (Name := ℕ) (U := UR sig nD τ) (Lvl := ℕ) c (W c),
          unscopedBufs_split₀ cfgs p hw.arr_unscoped c (fun b => W c (Proc.devRef .tc b)), unscopedRestP_none]
        refine sep_mono (hjoin c) (Entails.of_eq ?_)
        unfold unscopedRest
        exact bigSep_congr fun b hb => by dsimp only; rw [hWrest c b hb]
      -- and back, after the later operations
      have hback : (StableHlo.held (c.tc : Thread nD τ) (ucRefs τ sig) (StableHlo.after opss.flatten (W c)) : sProp 𝕄)
          ⊢ iprop((dats p c).arrays ((dats p c).arrAt · (cfg).N)
            ∗ unscopedRestP (Ix := Unit) (Name := ℕ) (U := UR sig nD τ) (Lvl := ℕ) Prefetch.none (cfg).spec c (finalAt W opss c)) := by
        rw [← unscopedBufs_held (Ix := Unit) (Name := ℕ) (U := UR sig nD τ) (Lvl := ℕ) c (StableHlo.after opss.flatten (W c)),
          unscopedBufs_split₀ cfgs p hw.arr_unscoped c (fun b => StableHlo.after opss.flatten (W c) (Proc.devRef .tc b)), unscopedRestP_none]
        refine sep_mono ((Entails.of_eq ?_).trans (hdeal' c)) .rfl
        unfold arrBufs
        exact bigSep_congr fun b hb => by
          obtain ⟨w, -, rfl⟩ := Finset.mem_image.mp hb
          dsimp only; rw [hsame c w]
      rw [← List.append_nil (opss.map StableHlo.seq)]
      iintro ⟨Hk, Hb, Ha, Hz⟩
      iapply (wp_seqs_then (fun q => (cfgs q).toPCfg (Val := Val)) defs₀ 𝒱₀ c (ucRefs τ sig) [] opss
        (fun ops ho op h => sub_ucRefs op (hsub ops ho op h)) hfresh (W c)) $$ [Hb Ha Hz]
      · isplitl [Hb]; · iexact Hb
        iapply hall; isplitl [Ha] <;> iassumption
      iintro ⟨-, H⟩
      rw [chain_nil, wp_pure]
      imodintro
      iapply Hk
      iapply hback; iexact H)
    (QY := fun c s => ∀ b ∈ restRefsP sig Prefetch.none (cfg).spec, s.mem ((c.tc : Thread nD τ).loc b) = finalAt W opss c b)
    (hY := fun c s' => by
      iintro ⟨-, HU, HSI⟩
      unfold unscopedRestP
      imodintro
      iapply (pointsTo_read_all (restRefsP sig Prefetch.none (cfg).spec) (fun b => (c.tc : Thread nD τ).loc b) (finalAt W opss c) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Cert.SharedFrame

end
-- ==== Proof.KFrame.lean ====
/-
  The attention kernel's frame: what its four scratch buffers and its output window hold after every grid point, the
  region's invariant carrying those contents from point to point, the body's obligation, and the run of @main.

  The grid is 8 query tiles by 8 key tiles, the key tile moving fastest. At the first key tile of a query tile the
  body projects and caches the query tile and resets the running maximum, sum and weighted sums; at every key tile it
  updates the three with the tile; at the last key tile it stores the weighted sums over the running sum into the
  output window, which is written back there and nowhere else. The input array is read through two windows (query
  rows and key rows), each holding half of its share.
-/
import proofs.«127219_j65481071402447_2_alg».proof.Proof.KRunC
import proofs.«127219_j65481071402447_2_alg».proof.Proof.LibSharedFrame

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

abbrev runB (c : Dev nD) (t : Fin cfg0.N) (h0 : ¬t.val % 8 = 0) (h1 : ¬t.val % 8 = 7)
    (xs0 : Vec F S1024x1024 .f32) (xs1 : Vec F S1024x1 .f32) (xs2 : Vec F S1024x1 .f32) (xs3 : Vec F S1024x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) xs0 xs1 xs2 xs3

abbrev runC (c : Dev nD) (t : Fin cfg0.N) (h0 : ¬t.val % 8 = 0) (h1 : t.val % 8 = 7)
    (xs0 : Vec F S1024x1024 .f32) (xs1 : Vec F S1024x1 .f32) (xs2 : Vec F S1024x1 .f32) (xs3 : Vec F S1024x1024 .bf16) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) xs0 xs1 xs2 xs3

/-! ## The stores cover the buffers -/

theorem scoverA_0 (c : Dev nD) (t : Fin cfg0.N) (h0 : t.val % 8 = 0) (h1 : ¬t.val % 8 = 7) (y : S1024x1024.Idx) :
    ∃ pc ∈ (runA m c t h0 h1).1, y ∈ pc.1.set := View.cover_of_tiledL _ S1024x1024.size (by sl_kernel_rfl) y
theorem scoverA_1 (c : Dev nD) (t : Fin cfg0.N) (h0 : t.val % 8 = 0) (h1 : ¬t.val % 8 = 7) (y : S1024x1.Idx) :
    ∃ pc ∈ (runA m c t h0 h1).2.1, y ∈ pc.1.set := View.cover_of_tiledL _ S1024x1.size (by sl_kernel_rfl) y
theorem scoverA_2 (c : Dev nD) (t : Fin cfg0.N) (h0 : t.val % 8 = 0) (h1 : ¬t.val % 8 = 7) (y : S1024x1.Idx) :
    ∃ pc ∈ (runA m c t h0 h1).2.2.1, y ∈ pc.1.set := View.cover_of_tiledL _ S1024x1.size (by sl_kernel_rfl) y
theorem scoverA_3 (c : Dev nD) (t : Fin cfg0.N) (h0 : t.val % 8 = 0) (h1 : ¬t.val % 8 = 7) (y : S1024x1024.Idx) :
    ∃ pc ∈ (runA m c t h0 h1).2.2.2.1, y ∈ pc.1.set := View.cover_of_tiledL _ S1024x1024.size (by sl_kernel_rfl) y

theorem scoverB_0 (c : Dev nD) (t : Fin cfg0.N) (h0 : ¬t.val % 8 = 0) (h1 : ¬t.val % 8 = 7) (xs0 xs1 xs2 xs3) (y : S1024x1024.Idx) :
    ∃ pc ∈ (runB m c t h0 h1 xs0 xs1 xs2 xs3).1, y ∈ pc.1.set := View.cover_of_tiledL _ S1024x1024.size (by sl_kernel_rfl) y
theorem scoverB_1 (c : Dev nD) (t : Fin cfg0.N) (h0 : ¬t.val % 8 = 0) (h1 : ¬t.val % 8 = 7) (xs0 xs1 xs2 xs3) (y : S1024x1.Idx) :
    ∃ pc ∈ (runB m c t h0 h1 xs0 xs1 xs2 xs3).2.1, y ∈ pc.1.set := View.cover_of_tiledL _ S1024x1.size (by sl_kernel_rfl) y
theorem scoverB_2 (c : Dev nD) (t : Fin cfg0.N) (h0 : ¬t.val % 8 = 0) (h1 : ¬t.val % 8 = 7) (xs0 xs1 xs2 xs3) (y : S1024x1.Idx) :
    ∃ pc ∈ (runB m c t h0 h1 xs0 xs1 xs2 xs3).2.2.1, y ∈ pc.1.set := View.cover_of_tiledL _ S1024x1.size (by sl_kernel_rfl) y

theorem coverC_4 (c : Dev nD) (t : Fin cfg0.N) (h0 : ¬t.val % 8 = 0) (h1 : t.val % 8 = 7) (xs0 xs1 xs2 xs3) (y : S1024x1024.Idx) :
    ∃ pc ∈ (runC m c t h0 h1 xs0 xs1 xs2 xs3).1, y ∈ pc.1.set := View.cover_of_tiledL _ S1024x1024.size (by sl_kernel_rfl) y
theorem scoverC_0 (c : Dev nD) (t : Fin cfg0.N) (h0 : ¬t.val % 8 = 0) (h1 : t.val % 8 = 7) (xs0 xs1 xs2 xs3) (y : S1024x1024.Idx) :
    ∃ pc ∈ (runC m c t h0 h1 xs0 xs1 xs2 xs3).2.1, y ∈ pc.1.set := View.cover_of_tiledL _ S1024x1024.size (by sl_kernel_rfl) y
theorem scoverC_1 (c : Dev nD) (t : Fin cfg0.N) (h0 : ¬t.val % 8 = 0) (h1 : t.val % 8 = 7) (xs0 xs1 xs2 xs3) (y : S1024x1.Idx) :
    ∃ pc ∈ (runC m c t h0 h1 xs0 xs1 xs2 xs3).2.2.1, y ∈ pc.1.set := View.cover_of_tiledL _ S1024x1.size (by sl_kernel_rfl) y
theorem scoverC_2 (c : Dev nD) (t : Fin cfg0.N) (h0 : ¬t.val % 8 = 0) (h1 : t.val % 8 = 7) (xs0 xs1 xs2 xs3) (y : S1024x1.Idx) :
    ∃ pc ∈ (runC m c t h0 h1 xs0 xs1 xs2 xs3).2.2.2.1, y ∈ pc.1.set := View.cover_of_tiledL _ S1024x1.size (by sl_kernel_rfl) y

/-! ## What the buffers hold after each point -/

/-- After a point: the output window's staging buffer, then the four scratch buffers (weighted sums, running maximum,
    running sum, cached query tile). -/
abbrev St (F : FTy → Type) [FloatOps F] : Type :=
  Vec F S1024x1024 .f32 × Vec F S1024x1024 .f32 × Vec F S1024x1 .f32 × Vec F S1024x1 .f32 × Vec F S1024x1024 .bf16

/-- After a first key tile. The output window is idle there: its component is a placeholder nothing consults. -/
def stA (c : Dev nD) (t : Fin cfg0.N) (h0 : t.val % 8 = 0) (h1 : ¬t.val % 8 = 7) : St F :=
  (VO0_4.read (Elt F) VO0_4.junk,
   VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1),
   VS0_3.read (Elt F) (VS0_3.writes (Elt F) VS0_3.junk (runA m c t h0 h1).2.2.2.1))

/-- After a middle key tile, over what the tile before left. -/
def stB (c : Dev nD) (t : Fin cfg0.N) (h0 : ¬t.val % 8 = 0) (h1 : ¬t.val % 8 = 7) (p : St F) : St F :=
  (VO0_4.read (Elt F) VO0_4.junk,
   VS0_0.read (Elt F) (VS0_0.writes (Elt F) VS0_0.junk (runB m c t h0 h1 p.2.1 p.2.2.1 p.2.2.2.1 p.2.2.2.2).1),
   VS0_1.read (Elt F) (VS0_1.writes (Elt F) VS0_1.junk (runB m c t h0 h1 p.2.1 p.2.2.1 p.2.2.2.1 p.2.2.2.2).2.1),
   VS0_2.read (Elt F) (VS0_2.writes (Elt F) VS0_2.junk (runB m c t h0 h1 p.2.1 p.2.2.1 p.2.2.2.1 p.2.2.2.2).2.2.1),
   p.2.2.2.2)

/-- After a last key tile, over what the tile before left. -/
def stC (c : Dev nD) (t : Fin cfg0.N) (h0 : ¬t.val % 8 = 0) (h1 : t.val % 8 = 7) (p : St F) : St F :=
  (VO0_4.read (Elt F) (VO0_4.writes (Elt F) VO0_4.junk (runC m c t h0 h1 p.2.1 p.2.2.1 p.2.2.2.1 p.2.2.2.2).1),
   VS0_0.read (Elt F) (VS0_0.writes (Elt F) VS0_0.junk (runC m c t h0 h1 p.2.1 p.2.2.1 p.2.2.2.1 p.2.2.2.2).2.1),
   VS0_1.read (Elt F) (VS0_1.writes (Elt F) VS0_1.junk (runC m c t h0 h1 p.2.1 p.2.2.1 p.2.2.2.1 p.2.2.2.2).2.2.1),
   VS0_2.read (Elt F) (VS0_2.writes (Elt F) VS0_2.junk (runC m c t h0 h1 p.2.1 p.2.2.1 p.2.2.2.1 p.2.2.2.2).2.2.2.1),
   p.2.2.2.2)

/-- THE ACCUMULATION: the buffers after the body at position `n`, by recursion on the position. -/
def outsAt0 (c : Dev nD) : (n : ℕ) → n < cfg0.N → St F
  | 0, hn => stA m c ⟨0, hn⟩ (Nat.zero_mod _) (by show ¬(0 % 8 = 7); decide)
  | n + 1, hn =>
    if h0 : (n + 1) % 8 = 0 then
      if h1 : (n + 1) % 8 = 7 then False.elim (by omega)
      else stA m c ⟨n + 1, hn⟩ h0 h1
    else
      if h1 : (n + 1) % 8 = 7 then stC m c ⟨n + 1, hn⟩ h0 h1 (outsAt0 c n (Nat.lt_of_succ_lt hn))
      else stB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = stA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch buffers hold anything; afterwards
    what the point before left. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The pipeline's proof data -/

/-- The arrays as the region finds them; after the body each input window's buffer at its block and the output
    window's at `outsAt0`; the invariant `PhiS`; the input array's two windows hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => (fullShare : PosShare TreeShare).left
    | ⟨3, _⟩ => (fullShare : PosShare TreeShare).right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the input windows' memrefs hold their blocks; the point's position within its query tile
    says which run applies; the invariant hands over the scratch buffers at what the point before left (at anything
    before the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold stA; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runC m c t h0 h1 _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t h0 h1 _ _ _ _)
          isplitl [HS1]
          · unfold owns; iexists _; isplitr
            swap; · iexact HS1
            ipureintro; exact View.read_writes_of_cover _ _ _ _ _ (scoverC_1 m c t h0 h1 _ _ _ _)
          isplitl [HS2]
          · unfold owns; iexists _; isplitr
            swap; · iexact HS2
            ipureintro; exact View.read_writes_of_cover _ _ _ _ _ (scoverC_2 m c t h0 h1 _ _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t h0 h1 _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold stB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runB m c t h0 h1 _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t h0 h1 _ _ _ _)
          isplitl [HS1]
          · unfold owns; iexists _; isplitr
            swap; · iexact HS1
            ipureintro; exact View.read_writes_of_cover _ _ _ _ _ (scoverB_1 m c t h0 h1 _ _ _ _)
          isplitl [HS2]
          · unfold owns; iexists _; isplitr
            swap; · iexact HS2
            ipureintro; exact View.read_writes_of_cover _ _ _ _ _ (scoverB_2 m c t h0 h1 _ _ _ _)
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Attn

end
-- ==== Proof.KLaunch.lean ====
/-
  The attention kernel's run of @main and its frame.

  The input array (after the format change) is read through two windows. Its buffer is held once, whole, before the
  region; at the region's entry its share is halved between the two windows, and at the exit the halves are joined
  again. The other arrays are held whole by their one window each.
-/
import proofs.«127219_j65481071402447_2_alg».proof.Proof.KFrame
import Idealize.ShloMosaic.Lib.StableHlo.Run

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The buffers behind the windows' arrays, one by one. -/
theorem arrBufs_eq (c : Dev nD) (Vf : (b : Ref sig .tc) → Buf (Elt F) ((c : Thread nD τ).loc b)) :
    (Pipeline.arrBufs spec0 c Vf : sProp 𝕄)
      = iprop((((c : Thread nD τ).loc main_v0) ↦{fullShare} Vf main_v0) ∗ (((c : Thread nD τ).loc main_v1) ↦{fullShare} Vf main_v1) ∗ (((c : Thread nD τ).loc main_v2) ↦{fullShare} Vf main_v2) ∗ (((c : Thread nD τ).loc main_v3) ↦{fullShare} Vf main_v3)) := by
  unfold Pipeline.arrBufs
  exact bigSep_eq_bigSepL_of_eq [main_v0, main_v1, main_v2, main_v3] (by decide) (by decide) _

theorem share_0 (c : Dev nD) : (dats m 0 c).share 0 = (fullShare : PosShare TreeShare).left := rfl
theorem share_1 (c : Dev nD) : (dats m 0 c).share 1 = fullShare := rfl
theorem share_2 (c : Dev nD) : (dats m 0 c).share 2 = fullShare := rfl
theorem share_3 (c : Dev nD) : (dats m 0 c).share 3 = (fullShare : PosShare TreeShare).right := rfl
theorem share_4 (c : Dev nD) : (dats m 0 c).share 4 = fullShare := rfl
theorem set_0 : (cfg0.win 0).arr.view.set = Finset.univ := (arr_whole0 0).set_eq_univ
theorem set_1 : (cfg0.win 1).arr.view.set = Finset.univ := (arr_whole0 1).set_eq_univ
theorem set_2 : (cfg0.win 2).arr.view.set = Finset.univ := (arr_whole0 2).set_eq_univ
theorem set_3 : (cfg0.win 3).arr.view.set = Finset.univ := (arr_whole0 3).set_eq_univ
theorem set_4 : (cfg0.win 4).arr.view.set = Finset.univ := (arr_whole0 4).set_eq_univ

/-- The proof data's arrays, window by window: the two windows on the input array hold half of its share each. -/
theorem arrays_eq (c : Dev nD) (Ff : (w : Fin cfg0.W) → Buf (Elt F) ((cfg0.win w).arr.view.loc (c : Thread nD τ))) :
    (dats m 0 c).arrays Ff
      = iprop((((c : Thread nD τ).loc main_v0) ↦{(fullShare : PosShare TreeShare).left} Ff 0) ∗ (((c : Thread nD τ).loc main_v1) ↦{fullShare} Ff 1) ∗ (((c : Thread nD τ).loc main_v2) ↦{fullShare} Ff 2) ∗ (((c : Thread nD τ).loc main_v0) ↦{(fullShare : PosShare TreeShare).right} Ff 3) ∗ (((c : Thread nD τ).loc main_v3) ↦{fullShare} Ff 4)) := by
  unfold Dat.arrays
  rw [bigSep_W0, share_0, share_1, share_2, share_3, share_4]
  (try rw [set_0]); (try rw [set_1]); (try rw [set_2]); (try rw [set_3]); (try rw [set_4])
  try rfl

/-- The input windows' arrays are never written. -/
theorem arrAt_0 (c : Dev nD) (n : ℕ) : (dats m 0 c).arrAt 0 n = V m c main_v0 := ((dats m 0 c).arrAt_in 0 rfl n).trans (A_eq m c 0)
theorem arrAt_1 (c : Dev nD) (n : ℕ) : (dats m 0 c).arrAt 1 n = V m c main_v1 := ((dats m 0 c).arrAt_in 1 rfl n).trans (A_eq m c 1)
theorem arrAt_2 (c : Dev nD) (n : ℕ) : (dats m 0 c).arrAt 2 n = V m c main_v2 := ((dats m 0 c).arrAt_in 2 rfl n).trans (A_eq m c 2)
theorem arrAt_3 (c : Dev nD) (n : ℕ) : (dats m 0 c).arrAt 3 n = V m c main_v0 := ((dats m 0 c).arrAt_in 3 rfl n).trans (A_eq m c 3)

/-- The contents at the region's exit: the output array at what the write-backs left, everything else as at entry. -/
def Wv (c : Dev nD) : Valuation τ sig (Elt F) :=
  Function.update (V0 m c) (Proc.devRef .tc main_v3) ((dats m 0 c).arrAt 4 cfg0.N)

theorem Wv_v3 (c : Dev nD) : Wv m c (Proc.devRef .tc main_v3) = (dats m 0 c).arrAt 4 cfg0.N := Function.update_self _ _ _
theorem Wv_of_ne (c : Dev nD) (b : Ref sig .tc) (h : b ≠ main_v3) : Wv m c (Proc.devRef .tc b) = V0 m c (Proc.devRef .tc b) :=
  Function.update_of_ne (StableHlo.devRef_ne_of_ne h) _ _

/-- At entry: the input array's share is halved between its two windows. -/
theorem hdeal (c : Dev nD) : (Pipeline.arrBufs spec0 c (fun b => V0 m c (Proc.devRef .tc b)) : sProp 𝕄) ⊢ (dats m 0 c).arrays ((dats m 0 c).arrAt · 0) := by
  rw [arrBufs_eq, arrays_eq]
  iintro ⟨H0, H1, H2, H3⟩
  ihave H0' := (pointsTo_share (PosShare.mem_left_op_right fullShare)).1 $$ H0
  icases H0' with ⟨Ha, Hb⟩
  isplitl [Ha]; · iexact Ha
  isplitl [H1]; · iexact H1
  isplitl [H2]; · iexact H2
  isplitl [Hb]; · iexact Hb
  iexact H3

/-- At exit: the halves are joined. -/
theorem hjoin (c : Dev nD) : (dats m 0 c).arrays ((dats m 0 c).arrAt · cfg0.N) ⊢ (Pipeline.arrBufs spec0 c (fun b => Wv m c (Proc.devRef .tc b)) : sProp 𝕄) := by
  rw [arrBufs_eq, arrays_eq]
  rw [arrAt_0, arrAt_1, arrAt_2, arrAt_3, Wv_v3, Wv_of_ne m c main_v0 (by decide), Wv_of_ne m c main_v1 (by decide), Wv_of_ne m c main_v2 (by decide)]
  iintro ⟨Ha, H1, H2, Hb, H3⟩
  isplitl [Ha Hb]
  · iapply (pointsTo_share (PosShare.mem_left_op_right fullShare)).2
    isplitl [Ha]; · iexact Ha
    iexact Hb
  isplitl [H1]; · iexact H1
  isplitl [H2]; · iexact H2
  iexact H3

/-- And dealt again. -/
theorem hdeal' (c : Dev nD) : (Pipeline.arrBufs spec0 c (fun b => Wv m c (Proc.devRef .tc b)) : sProp 𝕄) ⊢ (dats m 0 c).arrays ((dats m 0 c).arrAt · cfg0.N) := by
  rw [arrBufs_eq, arrays_eq]
  rw [arrAt_0, arrAt_1, arrAt_2, arrAt_3, Wv_v3, Wv_of_ne m c main_v0 (by decide), Wv_of_ne m c main_v1 (by decide), Wv_of_ne m c main_v2 (by decide)]
  iintro ⟨H0, H1, H2, H3⟩
  ihave H0' := (pointsTo_share (PosShare.mem_left_op_right fullShare)).1 $$ H0
  icases H0' with ⟨Ha, Hb⟩
  isplitl [Ha]; · iexact Ha
  isplitl [H1]; · iexact H1
  isplitl [H2]; · iexact H2
  isplitl [Hb]; · iexact Hb
  iexact H3

set_option backward.isDefEq.respectTransparency.types false in
/-- THE RUN: every weakly fair execution of @main terminates; each window's array ends at what the write-backs leave
    in it, every other unscoped buffer as the region found it. -/
theorem run_main : θ_run defs (onTc (τ := τ) (main (F := F))) (s₀ m ρ) (fun r => ∀ c : Dev nD,
      (∀ w, r.2.mem ((cfg0.spec w).arr.view.loc (c.tc : Thread nD τ)) = (dats m 0 c).arrAt w cfg0.N)
        ∧ ∀ b ∈ Pipeline.restRefs sig cfg0.spec, r.2.mem ((c.tc : Thread nD τ).loc b) = Cert.SharedFrame.finalAt (Wv m) [] c b) :=
  Cert.SharedFrame.θ_run_around_shared cfgs (dats m) (0 : Fin 1) defs₀ Variants.none cellOf_inj winFacts₀0 block_pos0 arr_whole0 stage_whole0 m ρ main
    (hbody := fun c => (body_obligation m c).loose) (howed := fun _ _ => rfl) (V₀ := V0 m) (W := Wv m) (opss := [])
    (hsub := fun _ h => absurd h (List.not_mem_nil)) (hfresh := fun _ h => absurd h (List.not_mem_nil)) (hkeep := fun _ h => absurd h (List.not_mem_nil))
    (hmain := hmain m Variants.none)
    (hWrest := fun c b hb => Wv_of_ne m c b (by rintro rfl; revert hb; decide))
    (hdeal := hdeal m) (hjoin := hjoin m) (hdeal' := hdeal' m) (hin := hin m) (hout := hout m)

/-- The host operations before the region write none of the three arguments. -/
theorem keep_main_arg0 (c : Dev nD) : Cert.SharedFrame.finalAt (Wv m) [] c main_arg0 = m ((c.tc : Thread nD τ).loc main_arg0) := by
  show Wv m c (Proc.devRef .tc main_arg0) = _
  rw [Wv_of_ne m c main_arg0 (by decide)]
  dsimp only [V0]
  simp only [hostOps0, List.flatten_cons, List.flatten_nil, List.append_nil]
  after_results
theorem keep_main_arg1 (c : Dev nD) : Cert.SharedFrame.finalAt (Wv m) [] c main_arg1 = m ((c.tc : Thread nD τ).loc main_arg1) := by
  show Wv m c (Proc.devRef .tc main_arg1) = _
  rw [Wv_of_ne m c main_arg1 (by decide)]
  dsimp only [V0]
  simp only [hostOps0, List.flatten_cons, List.flatten_nil, List.append_nil]
  after_results
theorem keep_main_arg2 (c : Dev nD) : Cert.SharedFrame.finalAt (Wv m) [] c main_arg2 = m ((c.tc : Thread nD τ).loc main_arg2) := by
  show Wv m c (Proc.devRef .tc main_arg2) = _
  rw [Wv_of_ne m c main_arg2 (by decide)]
  dsimp only [V0]
  simp only [hostOps0, List.flatten_cons, List.flatten_nil, List.append_nil]
  after_results

/-- THE FRAME: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide)).trans (keep_main_arg0 m c), ((h c).2 main_arg1 (by decide)).trans (keep_main_arg1 m c), ((h c).2 main_arg2 (by decide)).trans (keep_main_arg2 m c)⟩) (run_main m ρ)

end Cert.Kernel.Attn

end
-- ==== Proof.KIRuns.lean ====
/-
  What the three runs of the attention kernel's body share: the arrays as the region finds them (the three arguments
  after the two format changes and the re-laying of the entangling vector), the blocks the windows stage, the two
  conditions of the body (the first key tile of a query tile; the last one) decided over the 8 × 8 grid, where the
  output window is idle, and the names of the staging and scratch memrefs.
-/
import proofs.«127219_j65481071402447_2_alg».proof.Proof.Gen.KernelIdeal.Launch
import proofs.«127219_j65481071402447_2_alg».proof.Proof.Gen.KernelIdeal.Skeleton
import proofs.«127219_j65481071402447_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the three host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host operations, then the region, then the return. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0] [] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The key tile is the first of its query tile (the second grid coordinate is 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The key tile is the last of its query tile (the second grid coordinate is 7). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last key tile the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last key tile it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024x1024 .f32 := (Memref.whole cc0_stg4_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
/-- The four scratch operands: the weighted sums, the running maximum, the running sum, the cached query tile. -/
abbrev scM0_0 : Memref sig .tc .vmem S1024x1024 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x1024 .bf16 := Memref.whole cc0_scratch3
abbrev VS0_0 : View sig .tc .vmem S1024x1024 .f32 := scM0_0.view
abbrev VS0_1 : View sig .tc .vmem S1024x1 .f32 := scM0_1.view
abbrev VS0_2 : View sig .tc .vmem S1024x1 .f32 := scM0_2.view
abbrev VS0_3 : View sig .tc .vmem S1024x1024 .bf16 := scM0_3.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Attn

end
-- ==== Proof.KIRunA.lean ====
/-
  The body's run at the first key tile of a query tile: the query tile is projected and cached, the running maximum,
  sum and weighted sums are reset and then updated with the tile; the output window is left as found.
-/
import proofs.«127219_j65481071402447_2_alg».proof.Proof.KIRuns

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A (first key tile, not the last): what the stores leave in the four scratch buffers, as pieces, with the body's triple. -/
noncomputable def kernelRun0_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .bf16) (harg10 : arg10.IsWhole) (hc0 : cond0_0 i) (hc1 : ¬cond0_1 i)
    (x0 : Vec F S1024x1024 .bf16) (x1 : Vec F S1024x1024 .bf16) (x2 : Vec F S1x1024 .f32) (x3 : Vec F S1024x1024 .bf16) :
    Σ' (LS0 : List (View.Piece (Elt F) S1024x1024 .f32)) (LS1 : List (View.Piece (Elt F) S1024x1 .f32)) (LS2 : List (View.Piece (Elt F) S1024x1 .f32)), { LS3 : List (View.Piece (Elt F) S1024x1024 .bf16) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Attn

end
-- ==== Proof.KIRunB.lean ====
/-
  The body's run at a key tile that is neither the first nor the last of its query tile: the running maximum, sum and
  weighted sums the tile before left are updated with the tile; the cached query tile and the output window are left
  as found.
-/
import proofs.«127219_j65481071402447_2_alg».proof.Proof.KIRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B (neither first nor last key tile). -/
noncomputable def kernelRun0_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .bf16) (harg10 : arg10.IsWhole) (hc0 : ¬cond0_0 i) (hc1 : ¬cond0_1 i)
    (x0 : Vec F S1024x1024 .bf16) (x1 : Vec F S1024x1024 .bf16) (x2 : Vec F S1x1024 .f32) (x3 : Vec F S1024x1024 .bf16) (xs0 : Vec F S1024x1024 .f32) (xs1 : Vec F S1024x1 .f32) (xs2 : Vec F S1024x1 .f32) (xs3 : Vec F S1024x1024 .bf16) :
    Σ' (LS0 : List (View.Piece (Elt F) S1024x1024 .f32)) (LS1 : List (View.Piece (Elt F) S1024x1 .f32)), { LS2 : List (View.Piece (Elt F) S1024x1 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Attn

end
-- ==== Proof.KIRunC.lean ====
/-
  The body's run at the last key tile of a query tile: the running maximum, sum and weighted sums are updated with the
  tile, and the weighted sums over the running sum are stored into the output window.
-/
import proofs.«127219_j65481071402447_2_alg».proof.Proof.KIRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C (last key tile, not the first). -/
noncomputable def kernelRun0_C (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .bf16) (harg10 : arg10.IsWhole) (hc0 : ¬cond0_0 i) (hc1 : cond0_1 i)
    (x0 : Vec F S1024x1024 .bf16) (x1 : Vec F S1024x1024 .bf16) (x2 : Vec F S1x1024 .f32) (x3 : Vec F S1024x1024 .bf16) (xs0 : Vec F S1024x1024 .f32) (xs1 : Vec F S1024x1 .f32) (xs2 : Vec F S1024x1 .f32) (xs3 : Vec F S1024x1024 .bf16) :
    Σ' (L4 : List (View.Piece (Elt F) S1024x1024 .f32)) (LS0 : List (View.Piece (Elt F) S1024x1024 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ owns (c : Thread nD τ) arg10 fullShare xs3) -∗ K ⟨⟩))
          ⊢ wp frame (wpE (defs₀ (F := F)) Variants.none c none) E (cc0__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg10.read_unread _
    iexact HS3

end Cert.KernelIdeal.Attn

end
-- ==== Proof.KIFrame.lean ====
/-
  The attention kernel's frame: what its four scratch buffers and its output window hold after every grid point, the
  region's invariant carrying those contents from point to point, the body's obligation, and the run of @main.

  The grid is 8 query tiles by 8 key tiles, the key tile moving fastest. At the first key tile of a query tile the
  body projects and caches the query tile and resets the running maximum, sum and weighted sums; at every key tile it
  updates the three with the tile; at the last key tile it stores the weighted sums over the running sum into the
  output window, which is written back there and nowhere else. The input array is read through two windows (query
  rows and key rows), each holding half of its share.
-/
import proofs.«127219_j65481071402447_2_alg».proof.Proof.KIRunC
import proofs.«127219_j65481071402447_2_alg».proof.Proof.LibSharedFrame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

abbrev runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

abbrev runB (c : Dev nD) (t : Fin cfg0.N) (h0 : ¬t.val % 8 = 0) (h1 : ¬t.val % 8 = 7)
    (xs0 : Vec F S1024x1024 .f32) (xs1 : Vec F S1024x1 .f32) (xs2 : Vec F S1024x1 .f32) (xs3 : Vec F S1024x1024 .bf16) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) xs0 xs1 xs2 xs3

abbrev runC (c : Dev nD) (t : Fin cfg0.N) (h0 : ¬t.val % 8 = 0) (h1 : t.val % 8 = 7)
    (xs0 : Vec F S1024x1024 .f32) (xs1 : Vec F S1024x1 .f32) (xs2 : Vec F S1024x1 .f32) (xs3 : Vec F S1024x1024 .bf16) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) xs0 xs1 xs2 xs3

/-! ## The stores cover the buffers -/

theorem scoverA_0 (c : Dev nD) (t : Fin cfg0.N) (h0 : t.val % 8 = 0) (h1 : ¬t.val % 8 = 7) (y : S1024x1024.Idx) :
    ∃ pc ∈ (runA m c t h0 h1).1, y ∈ pc.1.set := View.cover_of_tiledL _ S1024x1024.size (by sl_kernel_rfl) y
theorem scoverA_1 (c : Dev nD) (t : Fin cfg0.N) (h0 : t.val % 8 = 0) (h1 : ¬t.val % 8 = 7) (y : S1024x1.Idx) :
    ∃ pc ∈ (runA m c t h0 h1).2.1, y ∈ pc.1.set := View.cover_of_tiledL _ S1024x1.size (by sl_kernel_rfl) y
theorem scoverA_2 (c : Dev nD) (t : Fin cfg0.N) (h0 : t.val % 8 = 0) (h1 : ¬t.val % 8 = 7) (y : S1024x1.Idx) :
    ∃ pc ∈ (runA m c t h0 h1).2.2.1, y ∈ pc.1.set := View.cover_of_tiledL _ S1024x1.size (by sl_kernel_rfl) y
theorem scoverA_3 (c : Dev nD) (t : Fin cfg0.N) (h0 : t.val % 8 = 0) (h1 : ¬t.val % 8 = 7) (y : S1024x1024.Idx) :
    ∃ pc ∈ (runA m c t h0 h1).2.2.2.1, y ∈ pc.1.set := View.cover_of_tiledL _ S1024x1024.size (by sl_kernel_rfl) y

theorem scoverB_0 (c : Dev nD) (t : Fin cfg0.N) (h0 : ¬t.val % 8 = 0) (h1 : ¬t.val % 8 = 7) (xs0 xs1 xs2 xs3) (y : S1024x1024.Idx) :
    ∃ pc ∈ (runB m c t h0 h1 xs0 xs1 xs2 xs3).1, y ∈ pc.1.set := View.cover_of_tiledL _ S1024x1024.size (by sl_kernel_rfl) y
theorem scoverB_1 (c : Dev nD) (t : Fin cfg0.N) (h0 : ¬t.val % 8 = 0) (h1 : ¬t.val % 8 = 7) (xs0 xs1 xs2 xs3) (y : S1024x1.Idx) :
    ∃ pc ∈ (runB m c t h0 h1 xs0 xs1 xs2 xs3).2.1, y ∈ pc.1.set := View.cover_of_tiledL _ S1024x1.size (by sl_kernel_rfl) y
theorem scoverB_2 (c : Dev nD) (t : Fin cfg0.N) (h0 : ¬t.val % 8 = 0) (h1 : ¬t.val % 8 = 7) (xs0 xs1 xs2 xs3) (y : S1024x1.Idx) :
    ∃ pc ∈ (runB m c t h0 h1 xs0 xs1 xs2 xs3).2.2.1, y ∈ pc.1.set := View.cover_of_tiledL _ S1024x1.size (by sl_kernel_rfl) y

theorem coverC_4 (c : Dev nD) (t : Fin cfg0.N) (h0 : ¬t.val % 8 = 0) (h1 : t.val % 8 = 7) (xs0 xs1 xs2 xs3) (y : S1024x1024.Idx) :
    ∃ pc ∈ (runC m c t h0 h1 xs0 xs1 xs2 xs3).1, y ∈ pc.1.set := View.cover_of_tiledL _ S1024x1024.size (by sl_kernel_rfl) y
theorem scoverC_0 (c : Dev nD) (t : Fin cfg0.N) (h0 : ¬t.val % 8 = 0) (h1 : t.val % 8 = 7) (xs0 xs1 xs2 xs3) (y : S1024x1024.Idx) :
    ∃ pc ∈ (runC m c t h0 h1 xs0 xs1 xs2 xs3).2.1, y ∈ pc.1.set := View.cover_of_tiledL _ S1024x1024.size (by sl_kernel_rfl) y
theorem scoverC_1 (c : Dev nD) (t : Fin cfg0.N) (h0 : ¬t.val % 8 = 0) (h1 : t.val % 8 = 7) (xs0 xs1 xs2 xs3) (y : S1024x1.Idx) :
    ∃ pc ∈ (runC m c t h0 h1 xs0 xs1 xs2 xs3).2.2.1, y ∈ pc.1.set := View.cover_of_tiledL _ S1024x1.size (by sl_kernel_rfl) y
theorem scoverC_2 (c : Dev nD) (t : Fin cfg0.N) (h0 : ¬t.val % 8 = 0) (h1 : t.val % 8 = 7) (xs0 xs1 xs2 xs3) (y : S1024x1.Idx) :
    ∃ pc ∈ (runC m c t h0 h1 xs0 xs1 xs2 xs3).2.2.2.1, y ∈ pc.1.set := View.cover_of_tiledL _ S1024x1.size (by sl_kernel_rfl) y

/-! ## What the buffers hold after each point -/

/-- After a point: the output window's staging buffer, then the four scratch buffers (weighted sums, running maximum,
    running sum, cached query tile). -/
abbrev St (F : FTy → Type) [FloatOps F] : Type :=
  Vec F S1024x1024 .f32 × Vec F S1024x1024 .f32 × Vec F S1024x1 .f32 × Vec F S1024x1 .f32 × Vec F S1024x1024 .bf16

/-- After a first key tile. The output window is idle there: its component is a placeholder nothing consults. -/
def stA (c : Dev nD) (t : Fin cfg0.N) (h0 : t.val % 8 = 0) (h1 : ¬t.val % 8 = 7) : St F :=
  (VO0_4.read (Elt F) VO0_4.junk,
   VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1),
   VS0_3.read (Elt F) (VS0_3.writes (Elt F) VS0_3.junk (runA m c t h0 h1).2.2.2.1))

/-- After a middle key tile, over what the tile before left. -/
def stB (c : Dev nD) (t : Fin cfg0.N) (h0 : ¬t.val % 8 = 0) (h1 : ¬t.val % 8 = 7) (p : St F) : St F :=
  (VO0_4.read (Elt F) VO0_4.junk,
   VS0_0.read (Elt F) (VS0_0.writes (Elt F) VS0_0.junk (runB m c t h0 h1 p.2.1 p.2.2.1 p.2.2.2.1 p.2.2.2.2).1),
   VS0_1.read (Elt F) (VS0_1.writes (Elt F) VS0_1.junk (runB m c t h0 h1 p.2.1 p.2.2.1 p.2.2.2.1 p.2.2.2.2).2.1),
   VS0_2.read (Elt F) (VS0_2.writes (Elt F) VS0_2.junk (runB m c t h0 h1 p.2.1 p.2.2.1 p.2.2.2.1 p.2.2.2.2).2.2.1),
   p.2.2.2.2)

/-- After a last key tile, over what the tile before left. -/
def stC (c : Dev nD) (t : Fin cfg0.N) (h0 : ¬t.val % 8 = 0) (h1 : t.val % 8 = 7) (p : St F) : St F :=
  (VO0_4.read (Elt F) (VO0_4.writes (Elt F) VO0_4.junk (runC m c t h0 h1 p.2.1 p.2.2.1 p.2.2.2.1 p.2.2.2.2).1),
   VS0_0.read (Elt F) (VS0_0.writes (Elt F) VS0_0.junk (runC m c t h0 h1 p.2.1 p.2.2.1 p.2.2.2.1 p.2.2.2.2).2.1),
   VS0_1.read (Elt F) (VS0_1.writes (Elt F) VS0_1.junk (runC m c t h0 h1 p.2.1 p.2.2.1 p.2.2.2.1 p.2.2.2.2).2.2.1),
   VS0_2.read (Elt F) (VS0_2.writes (Elt F) VS0_2.junk (runC m c t h0 h1 p.2.1 p.2.2.1 p.2.2.2.1 p.2.2.2.2).2.2.2.1),
   p.2.2.2.2)

/-- THE ACCUMULATION: the buffers after the body at position `n`, by recursion on the position. -/
def outsAt0 (c : Dev nD) : (n : ℕ) → n < cfg0.N → St F
  | 0, hn => stA m c ⟨0, hn⟩ (Nat.zero_mod _) (by show ¬(0 % 8 = 7); decide)
  | n + 1, hn =>
    if h0 : (n + 1) % 8 = 0 then
      if h1 : (n + 1) % 8 = 7 then False.elim (by omega)
      else stA m c ⟨n + 1, hn⟩ h0 h1
    else
      if h1 : (n + 1) % 8 = 7 then stC m c ⟨n + 1, hn⟩ h0 h1 (outsAt0 c n (Nat.lt_of_succ_lt hn))
      else stB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = stA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch buffers hold anything; afterwards
    what the point before left. -/
def PhiS (c : Dev nD) : (n : ℕ) → n ≤ cfg0.N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2.1 ∗ owns (c : Thread nD τ) scM0_3 fullShare (outsAt0 m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2.1 ∗ owns (c : Thread nD τ) scM0_3 fullShare (outsAt0 m c (n - 1) (by omega)).2.2.2.2) ∗ (∃ r, prngReg c r)) := by
  cases n with
  | zero => exact absurd rfl hz
  | succ n => rfl

/-! ## The pipeline's proof data -/

/-- The arrays as the region finds them; after the body each input window's buffer at its block and the output
    window's at `outsAt0`; the invariant `PhiS`; the input array's two windows hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => (fullShare : PosShare TreeShare).left
    | ⟨3, _⟩ => (fullShare : PosShare TreeShare).right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the input windows' memrefs hold their blocks; the point's position within its query tile
    says which run applies; the invariant hands over the scratch buffers at what the point before left (at anything
    before the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · have h1 : ¬t.val % 8 = 7 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold stA; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runA m c t h0 h1).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverA_0 m c t h0 h1)
          isplitl [HS1]
          · unfold owns; iexists _; isplitr
            swap; · iexact HS1
            ipureintro; exact View.read_writes_of_cover _ _ _ _ _ (scoverA_1 m c t h0 h1)
          isplitl [HS2]
          · unfold owns; iexists _; isplitr
            swap; · iexact HS2
            ipureintro; exact View.read_writes_of_cover _ _ _ _ _ (scoverA_2 m c t h0 h1)
          unfold owns; iexists _; isplitr
          swap; · iexact HS3
          ipureintro; exact View.read_writes_of_cover _ _ _ _ _ (scoverA_3 m c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stC; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runC m c t h0 h1 _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverC_0 m c t h0 h1 _ _ _ _)
          isplitl [HS1]
          · unfold owns; iexists _; isplitr
            swap; · iexact HS1
            ipureintro; exact View.read_writes_of_cover _ _ _ _ _ (scoverC_1 m c t h0 h1 _ _ _ _)
          isplitl [HS2]
          · unfold owns; iexists _; isplitr
            swap; · iexact HS2
            ipureintro; exact View.read_writes_of_cover _ _ _ _ _ (scoverC_2 m c t h0 h1 _ _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t h0 h1 _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold stB; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩⟩
      iapply ((runB m c t h0 h1 _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scoverB_0 m c t h0 h1 _ _ _ _)
          isplitl [HS1]
          · unfold owns; iexists _; isplitr
            swap; · iexact HS1
            ipureintro; exact View.read_writes_of_cover _ _ _ _ _ (scoverB_1 m c t h0 h1 _ _ _ _)
          isplitl [HS2]
          · unfold owns; iexists _; isplitr
            swap; · iexact HS2
            ipureintro; exact View.read_writes_of_cover _ _ _ _ _ (scoverB_2 m c t h0 h1 _ _ _ _)
          iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Attn

end
-- ==== Proof.KIState.lean ====
/-
  The attention kernel's buffers after each grid point, as values: the recursion over the 64 points written with the
  body's payloads. At the first key tile of a query tile the cached query tile is the projected, scaled block and the
  running maximum, sum and weighted sums start from −∞, 0, 0; every key tile updates the three from what the tile
  before left; the last key tile also leaves the weighted sums over the running sum in the output window.
-/
import proofs.«127219_j65481071402447_2_alg».proof.Proof.KIRuns

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a point: the output window's staging buffer, then the four scratch buffers (weighted sums, running maximum,
    running sum, cached query tile). -/
abbrev StP (F : FTy → Type) [FloatOps F] : Type :=
  Vec F S1024x1024 .f32 × Vec F S1024x1024 .f32 × Vec F S1024x1 .f32 × Vec F S1024x1 .f32 × Vec F S1024x1024 .bf16

/-- The update of the weighted sums by a key tile `x3` with entangling row `x2`, from the cached query tile `q`, the
    running maximum `mx` and the weighted sums `acc`. -/
abbrev updAcc (x3 : Vec F S1024x1024 .bf16) (x2 : Vec F S1x1024 .f32) (q : Vec F S1024x1024 .bf16) (mx : Vec F S1024x1 .f32) (acc : Vec F S1024x1024 .f32) : Vec F S1024x1024 .f32 :=
  k0_pay1 (k0_pay14 x3 x2 q mx acc)
/-- The update of the running maximum. -/
abbrev updMax (x3 : Vec F S1024x1024 .bf16) (x2 : Vec F S1x1024 .f32) (q : Vec F S1024x1024 .bf16) (mx : Vec F S1024x1 .f32) : Vec F S1024x1 .f32 :=
  k0_pay2 (k0_pay10 x3 x2 q mx)
/-- The update of the running sum. -/
abbrev updSum (x3 : Vec F S1024x1024 .bf16) (x2 : Vec F S1x1024 .f32) (q : Vec F S1024x1024 .bf16) (mx : Vec F S1024x1 .f32) (l : Vec F S1024x1 .f32) : Vec F S1024x1 .f32 :=
  k0_pay13 x3 x2 q mx l

/-- After a first key tile (the output window's component is a placeholder: the window is idle there). -/
def pA (c : Dev nD) (t : Fin cfg0.N) : StP F :=
  (VO0_4.read (Elt F) VO0_4.junk,
   updAcc (iblk m c 3 t) (iblk m c 2 t) (k0_pay4 (iblk m c 0 t) (iblk m c 1 t)) k0_pay5 k0_pay7,
   updMax (iblk m c 3 t) (iblk m c 2 t) (k0_pay4 (iblk m c 0 t) (iblk m c 1 t)) k0_pay5,
   updSum (iblk m c 3 t) (iblk m c 2 t) (k0_pay4 (iblk m c 0 t) (iblk m c 1 t)) k0_pay5 k0_pay6,
   k0_pay4 (iblk m c 0 t) (iblk m c 1 t))

/-- After a middle key tile, over what the tile before left. -/
def pB (c : Dev nD) (t : Fin cfg0.N) (p : StP F) : StP F :=
  (VO0_4.read (Elt F) VO0_4.junk,
   updAcc (iblk m c 3 t) (iblk m c 2 t) p.2.2.2.2 p.2.2.1 p.2.1,
   updMax (iblk m c 3 t) (iblk m c 2 t) p.2.2.2.2 p.2.2.1,
   updSum (iblk m c 3 t) (iblk m c 2 t) p.2.2.2.2 p.2.2.1 p.2.2.2.1,
   p.2.2.2.2)

/-- After a last key tile: as a middle one, and the output window holds the weighted sums over the running sum. -/
def pC (c : Dev nD) (t : Fin cfg0.N) (p : StP F) : StP F :=
  (k0_pay3 (updAcc (iblk m c 3 t) (iblk m c 2 t) p.2.2.2.2 p.2.2.1 p.2.1) (updSum (iblk m c 3 t) (iblk m c 2 t) p.2.2.2.2 p.2.2.1 p.2.2.2.1),
   updAcc (iblk m c 3 t) (iblk m c 2 t) p.2.2.2.2 p.2.2.1 p.2.1,
   updMax (iblk m c 3 t) (iblk m c 2 t) p.2.2.2.2 p.2.2.1,
   updSum (iblk m c 3 t) (iblk m c 2 t) p.2.2.2.2 p.2.2.1 p.2.2.2.1,
   p.2.2.2.2)

/-- The buffers after the body at position `n`. -/
def P (c : Dev nD) : (n : ℕ) → n < cfg0.N → StP F
  | 0, hn => pA m c ⟨0, hn⟩
  | n + 1, hn =>
    if (n + 1) % 8 = 0 then pA m c ⟨n + 1, hn⟩
    else if (n + 1) % 8 = 7 then pC m c ⟨n + 1, hn⟩ (P c n (Nat.lt_of_succ_lt hn))
    else pB m c ⟨n + 1, hn⟩ (P c n (Nat.lt_of_succ_lt hn))

theorem P_first (c : Dev nD) (t : Fin cfg0.N) (h0 : t.val % 8 = 0) : P m c t.val t.isLt = pA m c t := by
  obtain ⟨n, hn⟩ := t
  cases n with
  | zero => rfl
  | succ n => exact if_pos h0

theorem P_middle (c : Dev nD) (t : Fin cfg0.N) (h0 : ¬t.val % 8 = 0) (h1 : ¬t.val % 8 = 7) :
    P m c t.val t.isLt = pB m c t (P m c (t.val - 1) (Nat.lt_of_le_of_lt (Nat.sub_le _ _) t.isLt)) := by
  obtain ⟨n, hn⟩ := t
  cases n with
  | zero => exact absurd (Nat.zero_mod _) h0
  | succ n => exact (if_neg h0).trans (if_neg h1)

theorem P_last (c : Dev nD) (t : Fin cfg0.N) (h0 : ¬t.val % 8 = 0) (h1 : t.val % 8 = 7) :
    P m c t.val t.isLt = pC m c t (P m c (t.val - 1) (Nat.lt_of_le_of_lt (Nat.sub_le _ _) t.isLt)) := by
  obtain ⟨n, hn⟩ := t
  cases n with
  | zero => exact absurd (Nat.zero_mod _) h0
  | succ n => exact (if_neg h0).trans (if_pos h1)

end Cert.KernelIdeal.Attn

end
-- ==== Proof.KIPieces.lean ====
/-
  What the runs found, read back as values: after each case of the body the scratch buffers (and, at a last key tile,
  the output window) hold the payloads' values of the point's blocks and of what the point before left. So the
  buffers after every point are the recursion written over the payloads.
-/
import proofs.«127219_j65481071402447_2_alg».proof.Proof.KIFrame
import proofs.«127219_j65481071402447_2_alg».proof.Proof.KIState
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A whole scratch buffer read back holds what was laid in it. -/
theorem rd0 (x : Vec F S1024x1024 .f32) : View.read (Elt F) (View.whole cc0_scratch0) ((Memref.isWhole_whole cc0_scratch0).unread x) = x := (Memref.isWhole_whole cc0_scratch0).read_unread x
theorem rd1 (x : Vec F S1024x1 .f32) : View.read (Elt F) (View.whole cc0_scratch1) ((Memref.isWhole_whole cc0_scratch1).unread x) = x := (Memref.isWhole_whole cc0_scratch1).read_unread x
theorem rd2 (x : Vec F S1024x1 .f32) : View.read (Elt F) (View.whole cc0_scratch2) ((Memref.isWhole_whole cc0_scratch2).unread x) = x := (Memref.isWhole_whole cc0_scratch2).read_unread x
theorem rd3 (x : Vec F S1024x1024 .bf16) : View.read (Elt F) (View.whole cc0_scratch3) ((Memref.isWhole_whole cc0_scratch3).unread x) = x := (Memref.isWhole_whole cc0_scratch3).read_unread x

theorem stA_acc (c : Dev nD) (t : Fin cfg0.N) (h0 : t.val % 8 = 0) (h1 : ¬t.val % 8 = 7) :
    (stA m c t h0 h1).2.1 = (pA m c t).2.1 := by
  unfold stA pA
  dsimp only
  rw [View.read_writes_eq_canon _ _ _ (scoverA_0 m c t h0 h1)]
  unfold runA kernelRun0_A
  dsimp only
  try sl_unfold_words
  first | rw [View.canon_cons_unit_zero (S := S1024x1024) hz] | rw [View.canon_unit_zero (S := S1024x1024) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stA_max (c : Dev nD) (t : Fin cfg0.N) (h0 : t.val % 8 = 0) (h1 : ¬t.val % 8 = 7) :
    (stA m c t h0 h1).2.2.1 = (pA m c t).2.2.1 := by
  unfold stA pA
  dsimp only
  rw [View.read_writes_eq_canon _ _ _ (scoverA_1 m c t h0 h1)]
  unfold runA kernelRun0_A
  dsimp only
  try sl_unfold_words
  first | rw [View.canon_cons_unit_zero (S := S1024x1) hz] | rw [View.canon_unit_zero (S := S1024x1) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stA_sum (c : Dev nD) (t : Fin cfg0.N) (h0 : t.val % 8 = 0) (h1 : ¬t.val % 8 = 7) :
    (stA m c t h0 h1).2.2.2.1 = (pA m c t).2.2.2.1 := by
  unfold stA pA
  dsimp only
  rw [View.read_writes_eq_canon _ _ _ (scoverA_2 m c t h0 h1)]
  unfold runA kernelRun0_A
  dsimp only
  try sl_unfold_words
  first | rw [View.canon_cons_unit_zero (S := S1024x1) hz] | rw [View.canon_unit_zero (S := S1024x1) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stA_q (c : Dev nD) (t : Fin cfg0.N) (h0 : t.val % 8 = 0) (h1 : ¬t.val % 8 = 7) :
    (stA m c t h0 h1).2.2.2.2 = (pA m c t).2.2.2.2 := by
  unfold stA pA
  dsimp only
  rw [View.read_writes_eq_canon _ _ _ (scoverA_3 m c t h0 h1)]
  unfold runA kernelRun0_A
  dsimp only
  try sl_unfold_words
  first | rw [View.canon_cons_unit_zero (S := S1024x1024) hz] | rw [View.canon_unit_zero (S := S1024x1024) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stA_eq (c : Dev nD) (t : Fin cfg0.N) (h0 : t.val % 8 = 0) (h1 : ¬t.val % 8 = 7) : stA m c t h0 h1 = pA m c t :=
  Prod.ext rfl (Prod.ext (stA_acc m c t h0 h1) (Prod.ext (stA_max m c t h0 h1) (Prod.ext (stA_sum m c t h0 h1) (stA_q m c t h0 h1))))

theorem stB_acc (c : Dev nD) (t : Fin cfg0.N) (h0 : ¬t.val % 8 = 0) (h1 : ¬t.val % 8 = 7) (p : St F) :
    (stB m c t h0 h1 p).2.1 = (pB m c t p).2.1 := by
  unfold stB pB
  dsimp only
  rw [View.read_writes_eq_canon _ _ _ (scoverB_0 m c t h0 h1 _ _ _ _)]
  unfold runB kernelRun0_B
  dsimp only
  try sl_unfold_words
  first | rw [View.canon_cons_unit_zero (S := S1024x1024) hz] | rw [View.canon_unit_zero (S := S1024x1024) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stB_max (c : Dev nD) (t : Fin cfg0.N) (h0 : ¬t.val % 8 = 0) (h1 : ¬t.val % 8 = 7) (p : St F) :
    (stB m c t h0 h1 p).2.2.1 = (pB m c t p).2.2.1 := by
  unfold stB pB
  dsimp only
  rw [View.read_writes_eq_canon _ _ _ (scoverB_1 m c t h0 h1 _ _ _ _)]
  unfold runB kernelRun0_B
  dsimp only
  try sl_unfold_words
  first | rw [View.canon_cons_unit_zero (S := S1024x1) hz] | rw [View.canon_unit_zero (S := S1024x1) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stB_sum (c : Dev nD) (t : Fin cfg0.N) (h0 : ¬t.val % 8 = 0) (h1 : ¬t.val % 8 = 7) (p : St F) :
    (stB m c t h0 h1 p).2.2.2.1 = (pB m c t p).2.2.2.1 := by
  unfold stB pB
  dsimp only
  rw [View.read_writes_eq_canon _ _ _ (scoverB_2 m c t h0 h1 _ _ _ _)]
  unfold runB kernelRun0_B
  dsimp only
  try sl_unfold_words
  first | rw [View.canon_cons_unit_zero (S := S1024x1) hz] | rw [View.canon_unit_zero (S := S1024x1) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stB_eq (c : Dev nD) (t : Fin cfg0.N) (h0 : ¬t.val % 8 = 0) (h1 : ¬t.val % 8 = 7) (p : St F) : stB m c t h0 h1 p = pB m c t p :=
  Prod.ext rfl (Prod.ext (stB_acc m c t h0 h1 p) (Prod.ext (stB_max m c t h0 h1 p) (Prod.ext (stB_sum m c t h0 h1 p) rfl)))

theorem stC_out (c : Dev nD) (t : Fin cfg0.N) (h0 : ¬t.val % 8 = 0) (h1 : t.val % 8 = 7) (p : St F) :
    (stC m c t h0 h1 p).1 = (pC m c t p).1 := by
  unfold stC pC
  dsimp only
  rw [View.read_writes_eq_canon _ _ _ (coverC_4 m c t h0 h1 _ _ _ _)]
  unfold runC kernelRun0_C
  dsimp only
  try sl_unfold_words
  first | rw [View.canon_cons_unit_zero (S := S1024x1024) hz] | rw [View.canon_unit_zero (S := S1024x1024) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stC_acc (c : Dev nD) (t : Fin cfg0.N) (h0 : ¬t.val % 8 = 0) (h1 : t.val % 8 = 7) (p : St F) :
    (stC m c t h0 h1 p).2.1 = (pC m c t p).2.1 := by
  unfold stC pC
  dsimp only
  rw [View.read_writes_eq_canon _ _ _ (scoverC_0 m c t h0 h1 _ _ _ _)]
  unfold runC kernelRun0_C
  dsimp only
  try sl_unfold_words
  first | rw [View.canon_cons_unit_zero (S := S1024x1024) hz] | rw [View.canon_unit_zero (S := S1024x1024) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stC_max (c : Dev nD) (t : Fin cfg0.N) (h0 : ¬t.val % 8 = 0) (h1 : t.val % 8 = 7) (p : St F) :
    (stC m c t h0 h1 p).2.2.1 = (pC m c t p).2.2.1 := by
  unfold stC pC
  dsimp only
  rw [View.read_writes_eq_canon _ _ _ (scoverC_1 m c t h0 h1 _ _ _ _)]
  unfold runC kernelRun0_C
  dsimp only
  try sl_unfold_words
  first | rw [View.canon_cons_unit_zero (S := S1024x1) hz] | rw [View.canon_unit_zero (S := S1024x1) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stC_sum (c : Dev nD) (t : Fin cfg0.N) (h0 : ¬t.val % 8 = 0) (h1 : t.val % 8 = 7) (p : St F) :
    (stC m c t h0 h1 p).2.2.2.1 = (pC m c t p).2.2.2.1 := by
  unfold stC pC
  dsimp only
  rw [View.read_writes_eq_canon _ _ _ (scoverC_2 m c t h0 h1 _ _ _ _)]
  unfold runC kernelRun0_C
  dsimp only
  try sl_unfold_words
  first | rw [View.canon_cons_unit_zero (S := S1024x1) hz] | rw [View.canon_unit_zero (S := S1024x1) hz]
  try simp only [View.readCov_unit_zero (S := S1024x1024) _ hz, View.readCov_unit_zero (S := S1024x1) _ hz, View.readAt_eq_ld, Memref.IsWhole.read_unread, (hs0_0 t).read_unread, (hs0_1 t).read_unread, (hs0_2 t).read_unread, (hs0_3 t).read_unread, View.ld_unit_zero (S := S1024x1024) hz, View.ld_unit_zero (S := S1024x1) hz, View.ld_unit_zero (S := S1x1024) hz]
  try simp only [rd0, rd1, rd2, rd3]

theorem stC_eq (c : Dev nD) (t : Fin cfg0.N) (h0 : ¬t.val % 8 = 0) (h1 : t.val % 8 = 7) (p : St F) : stC m c t h0 h1 p = pC m c t p :=
  Prod.ext (stC_out m c t h0 h1 p) (Prod.ext (stC_acc m c t h0 h1 p) (Prod.ext (stC_max m c t h0 h1 p) (Prod.ext (stC_sum m c t h0 h1 p) rfl)))

/-- The buffers after every point are the recursion over the payloads. -/
theorem outsAt0_eq_P (c : Dev nD) : ∀ (n : ℕ) (hn : n < cfg0.N), outsAt0 m c n hn = P m c n hn
  | 0, hn => (outsAt0_A m c ⟨0, hn⟩ (Nat.zero_mod _) (by show ¬(0 % 8 = 7); decide)).trans ((stA_eq m c _ _ _).trans (P_first m c ⟨0, hn⟩ (Nat.zero_mod _)).symm)
  | n + 1, hn => by
    by_cases h0 : (n + 1) % 8 = 0
    · have h1 : ¬(n + 1) % 8 = 7 := by omega
      exact (outsAt0_A m c ⟨n + 1, hn⟩ h0 h1).trans ((stA_eq m c _ _ _).trans (P_first m c ⟨n + 1, hn⟩ h0).symm)
    · by_cases h1 : (n + 1) % 8 = 7
      · rw [outsAt0_C m c ⟨n + 1, hn⟩ h0 h1, P_last m c ⟨n + 1, hn⟩ h0 h1, stC_eq]
        show pC m c _ (outsAt0 m c n _) = pC m c _ (P m c n _)
        rw [outsAt0_eq_P c n]
      · rw [outsAt0_B m c ⟨n + 1, hn⟩ h0 h1, P_middle m c ⟨n + 1, hn⟩ h0 h1, stB_eq]
        show pB m c _ (outsAt0 m c n _) = pB m c _ (P m c n _)
        rw [outsAt0_eq_P c n]

end Cert.KernelIdeal.Attn

end
-- ==== Proof.KILaunch.lean ====
/-
  The attention kernel's run of @main and its frame.

  The input array (after the format change) is read through two windows. Its buffer is held once, whole, before the
  region; at the region's entry its share is halved between the two windows, and at the exit the halves are joined
  again. The other arrays are held whole by their one window each.
-/
import proofs.«127219_j65481071402447_2_alg».proof.Proof.KIFrame
import Idealize.ShloMosaic.Lib.StableHlo.Run

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-- The buffers behind the windows' arrays, one by one. -/
theorem arrBufs_eq (c : Dev nD) (Vf : (b : Ref sig .tc) → Buf (Elt F) ((c : Thread nD τ).loc b)) :
    (Pipeline.arrBufs spec0 c Vf : sProp 𝕄)
      = iprop((((c : Thread nD τ).loc main_v0) ↦{fullShare} Vf main_v0) ∗ (((c : Thread nD τ).loc main_v1) ↦{fullShare} Vf main_v1) ∗ (((c : Thread nD τ).loc main_v2) ↦{fullShare} Vf main_v2) ∗ (((c : Thread nD τ).loc main_v3) ↦{fullShare} Vf main_v3)) := by
  unfold Pipeline.arrBufs
  exact bigSep_eq_bigSepL_of_eq [main_v0, main_v1, main_v2, main_v3] (by decide) (by decide) _

theorem share_0 (c : Dev nD) : (dats m 0 c).share 0 = (fullShare : PosShare TreeShare).left := rfl
theorem share_1 (c : Dev nD) : (dats m 0 c).share 1 = fullShare := rfl
theorem share_2 (c : Dev nD) : (dats m 0 c).share 2 = fullShare := rfl
theorem share_3 (c : Dev nD) : (dats m 0 c).share 3 = (fullShare : PosShare TreeShare).right := rfl
theorem share_4 (c : Dev nD) : (dats m 0 c).share 4 = fullShare := rfl
theorem set_0 : (cfg0.win 0).arr.view.set = Finset.univ := (arr_whole0 0).set_eq_univ
theorem set_1 : (cfg0.win 1).arr.view.set = Finset.univ := (arr_whole0 1).set_eq_univ
theorem set_2 : (cfg0.win 2).arr.view.set = Finset.univ := (arr_whole0 2).set_eq_univ
theorem set_3 : (cfg0.win 3).arr.view.set = Finset.univ := (arr_whole0 3).set_eq_univ
theorem set_4 : (cfg0.win 4).arr.view.set = Finset.univ := (arr_whole0 4).set_eq_univ

/-- The proof data's arrays, window by window: the two windows on the input array hold half of its share each. -/
theorem arrays_eq (c : Dev nD) (Ff : (w : Fin cfg0.W) → Buf (Elt F) ((cfg0.win w).arr.view.loc (c : Thread nD τ))) :
    (dats m 0 c).arrays Ff
      = iprop((((c : Thread nD τ).loc main_v0) ↦{(fullShare : PosShare TreeShare).left} Ff 0) ∗ (((c : Thread nD τ).loc main_v1) ↦{fullShare} Ff 1) ∗ (((c : Thread nD τ).loc main_v2) ↦{fullShare} Ff 2) ∗ (((c : Thread nD τ).loc main_v0) ↦{(fullShare : PosShare TreeShare).right} Ff 3) ∗ (((c : Thread nD τ).loc main_v3) ↦{fullShare} Ff 4)) := by
  unfold Dat.arrays
  rw [bigSep_W0, share_0, share_1, share_2, share_3, share_4]
  (try rw [set_0]); (try rw [set_1]); (try rw [set_2]); (try rw [set_3]); (try rw [set_4])
  try rfl

/-- The input windows' arrays are never written. -/
theorem arrAt_0 (c : Dev nD) (n : ℕ) : (dats m 0 c).arrAt 0 n = V m c main_v0 := ((dats m 0 c).arrAt_in 0 rfl n).trans (A_eq m c 0)
theorem arrAt_1 (c : Dev nD) (n : ℕ) : (dats m 0 c).arrAt 1 n = V m c main_v1 := ((dats m 0 c).arrAt_in 1 rfl n).trans (A_eq m c 1)
theorem arrAt_2 (c : Dev nD) (n : ℕ) : (dats m 0 c).arrAt 2 n = V m c main_v2 := ((dats m 0 c).arrAt_in 2 rfl n).trans (A_eq m c 2)
theorem arrAt_3 (c : Dev nD) (n : ℕ) : (dats m 0 c).arrAt 3 n = V m c main_v0 := ((dats m 0 c).arrAt_in 3 rfl n).trans (A_eq m c 3)

/-- The contents at the region's exit: the output array at what the write-backs left, everything else as at entry. -/
def Wv (c : Dev nD) : Valuation τ sig (Elt F) :=
  Function.update (V0 m c) (Proc.devRef .tc main_v3) ((dats m 0 c).arrAt 4 cfg0.N)

theorem Wv_v3 (c : Dev nD) : Wv m c (Proc.devRef .tc main_v3) = (dats m 0 c).arrAt 4 cfg0.N := Function.update_self _ _ _
theorem Wv_of_ne (c : Dev nD) (b : Ref sig .tc) (h : b ≠ main_v3) : Wv m c (Proc.devRef .tc b) = V0 m c (Proc.devRef .tc b) :=
  Function.update_of_ne (StableHlo.devRef_ne_of_ne h) _ _

/-- At entry: the input array's share is halved between its two windows. -/
theorem hdeal (c : Dev nD) : (Pipeline.arrBufs spec0 c (fun b => V0 m c (Proc.devRef .tc b)) : sProp 𝕄) ⊢ (dats m 0 c).arrays ((dats m 0 c).arrAt · 0) := by
  rw [arrBufs_eq, arrays_eq]
  iintro ⟨H0, H1, H2, H3⟩
  ihave H0' := (pointsTo_share (PosShare.mem_left_op_right fullShare)).1 $$ H0
  icases H0' with ⟨Ha, Hb⟩
  isplitl [Ha]; · iexact Ha
  isplitl [H1]; · iexact H1
  isplitl [H2]; · iexact H2
  isplitl [Hb]; · iexact Hb
  iexact H3

/-- At exit: the halves are joined. -/
theorem hjoin (c : Dev nD) : (dats m 0 c).arrays ((dats m 0 c).arrAt · cfg0.N) ⊢ (Pipeline.arrBufs spec0 c (fun b => Wv m c (Proc.devRef .tc b)) : sProp 𝕄) := by
  rw [arrBufs_eq, arrays_eq]
  rw [arrAt_0, arrAt_1, arrAt_2, arrAt_3, Wv_v3, Wv_of_ne m c main_v0 (by decide), Wv_of_ne m c main_v1 (by decide), Wv_of_ne m c main_v2 (by decide)]
  iintro ⟨Ha, H1, H2, Hb, H3⟩
  isplitl [Ha Hb]
  · iapply (pointsTo_share (PosShare.mem_left_op_right fullShare)).2
    isplitl [Ha]; · iexact Ha
    iexact Hb
  isplitl [H1]; · iexact H1
  isplitl [H2]; · iexact H2
  iexact H3

/-- And dealt again. -/
theorem hdeal' (c : Dev nD) : (Pipeline.arrBufs spec0 c (fun b => Wv m c (Proc.devRef .tc b)) : sProp 𝕄) ⊢ (dats m 0 c).arrays ((dats m 0 c).arrAt · cfg0.N) := by
  rw [arrBufs_eq, arrays_eq]
  rw [arrAt_0, arrAt_1, arrAt_2, arrAt_3, Wv_v3, Wv_of_ne m c main_v0 (by decide), Wv_of_ne m c main_v1 (by decide), Wv_of_ne m c main_v2 (by decide)]
  iintro ⟨H0, H1, H2, H3⟩
  ihave H0' := (pointsTo_share (PosShare.mem_left_op_right fullShare)).1 $$ H0
  icases H0' with ⟨Ha, Hb⟩
  isplitl [Ha]; · iexact Ha
  isplitl [H1]; · iexact H1
  isplitl [H2]; · iexact H2
  isplitl [Hb]; · iexact Hb
  iexact H3

set_option backward.isDefEq.respectTransparency.types false in
/-- THE RUN: every weakly fair execution of @main terminates; each window's array ends at what the write-backs leave
    in it, every other unscoped buffer as the region found it. -/
theorem run_main : θ_run defs (onTc (τ := τ) (main (F := F))) (s₀ m ρ) (fun r => ∀ c : Dev nD,
      (∀ w, r.2.mem ((cfg0.spec w).arr.view.loc (c.tc : Thread nD τ)) = (dats m 0 c).arrAt w cfg0.N)
        ∧ ∀ b ∈ Pipeline.restRefs sig cfg0.spec, r.2.mem ((c.tc : Thread nD τ).loc b) = Cert.SharedFrame.finalAt (Wv m) [] c b) :=
  Cert.SharedFrame.θ_run_around_shared cfgs (dats m) (0 : Fin 1) defs₀ Variants.none cellOf_inj winFacts₀0 block_pos0 arr_whole0 stage_whole0 m ρ main
    (hbody := fun c => (body_obligation m c).loose) (howed := fun _ _ => rfl) (V₀ := V0 m) (W := Wv m) (opss := [])
    (hsub := fun _ h => absurd h (List.not_mem_nil)) (hfresh := fun _ h => absurd h (List.not_mem_nil)) (hkeep := fun _ h => absurd h (List.not_mem_nil))
    (hmain := hmain m Variants.none)
    (hWrest := fun c b hb => Wv_of_ne m c b (by rintro rfl; revert hb; decide))
    (hdeal := hdeal m) (hjoin := hjoin m) (hdeal' := hdeal' m) (hin := hin m) (hout := hout m)

/-- The host operations before the region write none of the three arguments. -/
theorem keep_main_arg0 (c : Dev nD) : Cert.SharedFrame.finalAt (Wv m) [] c main_arg0 = m ((c.tc : Thread nD τ).loc main_arg0) := by
  show Wv m c (Proc.devRef .tc main_arg0) = _
  rw [Wv_of_ne m c main_arg0 (by decide)]
  dsimp only [V0]
  simp only [hostOps0, List.flatten_cons, List.flatten_nil, List.append_nil]
  after_results
theorem keep_main_arg1 (c : Dev nD) : Cert.SharedFrame.finalAt (Wv m) [] c main_arg1 = m ((c.tc : Thread nD τ).loc main_arg1) := by
  show Wv m c (Proc.devRef .tc main_arg1) = _
  rw [Wv_of_ne m c main_arg1 (by decide)]
  dsimp only [V0]
  simp only [hostOps0, List.flatten_cons, List.flatten_nil, List.append_nil]
  after_results
theorem keep_main_arg2 (c : Dev nD) : Cert.SharedFrame.finalAt (Wv m) [] c main_arg2 = m ((c.tc : Thread nD τ).loc main_arg2) := by
  show Wv m c (Proc.devRef .tc main_arg2) = _
  rw [Wv_of_ne m c main_arg2 (by decide)]
  dsimp only [V0]
  simp only [hostOps0, List.flatten_cons, List.flatten_nil, List.append_nil]
  after_results

/-- THE FRAME: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide)).trans (keep_main_arg0 m c), ((h c).2 main_arg1 (by decide)).trans (keep_main_arg1 m c), ((h c).2 main_arg2 (by decide)).trans (keep_main_arg2 m c)⟩) (run_main m ρ)

end Cert.KernelIdeal.Attn

end
-- ==== Proof.KIBlocks.lean ====
/-
  What the kernel's windows stage, read at an index, on the extended reals.

  Before the region the program changes the format of the inputs `X` and of the rotation `R` (the identity on extended
  reals) and lays the entangling vector `e` as a single row. Over the 8 × 8 grid, point `t` has coordinates
  `(t / 8, t % 8)`; the windows stage: the query tile, rows `1024 · (t / 8) …` of `X`; all of `R`; the row `e`; the key
  tile, rows `1024 · (t % 8) …` of `X`. An entry of a block is the entry of the array at
  block index × block size + the coordinate inside the block, axis by axis.
-/
import proofs.«127219_j65481071402447_2_alg».proof.Proof.KIRuns
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Cert.KernelIdeal.Attn
open Idealize.ShloMosaic Idealize.ShloMosaic.TcCoe Idealize.ShloMosaic.ValueIdx

variable (m : (ℓ : Loc nD τ sig) → Buf (Elt Ideal) ℓ)

/-! ## The arrays as the region finds them -/

/-- The inputs after the change of format are the inputs. -/
theorem V_main_v0 (c : Dev nD) :
    (V m c main_v0 : S8192x1024.Idx → EReal) = m ((c.tc : Thread nD τ).loc main_arg0) := by
  dsimp only [V, V0]
  simp only [hostOps0, List.flatten_cons, List.flatten_nil, List.append_nil]
  after_results
  rfl

/-- The rotation after the change of format is the rotation. -/
theorem V_main_v1 (c : Dev nD) :
    (V m c main_v1 : S1024x1024.Idx → EReal) = m ((c.tc : Thread nD τ).loc main_arg1) := by
  dsimp only [V, V0]
  simp only [hostOps0, List.flatten_cons, List.flatten_nil, List.append_nil]
  after_results
  rfl

/-- The entangling vector laid as one row of 1024 entries reads, at (0, d), its entry `d`. -/
theorem V_main_v2_apply (c : Dev nD) (d : Fin 1024) :
    (V m c main_v2 : S1x1024.Idx → EReal) (ix2 (0 : Fin 1) d) = m ((c.tc : Thread nD τ).loc main_arg2) (ix1 d) := by
  dsimp only [V, V0]
  simp only [hostOps0, List.flatten_cons, List.flatten_nil, List.append_nil]
  after_results
  show shapeCast S1x1024 (m ((c.tc : Thread nD τ).loc main_arg2) : S1024.Idx → EReal) shapeCasts_S1024_S1x1024
      (ix2 (0 : Fin 1) d) = _
  refine shapeCast_apply _ _ _ (ix1 d) ?_
  rw [Shape.rowMajor_val_one, Shape.rowMajor_val_two]
  show d.val = 0 * 1024 + d.val
  omega

/-! ## The block indices, decided over the grid -/

/-- The query tile's block index at point `t` is `(t / 8, 0)`. -/
theorem idx0 : ∀ t : Fin cfg0.N, win0_0.index t (0 : Fin 2) = t.val / 8 ∧ win0_0.index t (1 : Fin 2) = 0 :=
  (by decide +kernel : ∀ t : Fin grid0.N, _)
/-- The rotation is one block. -/
theorem idx1 : ∀ t : Fin cfg0.N, win0_1.index t (0 : Fin 2) = 0 ∧ win0_1.index t (1 : Fin 2) = 0 :=
  (by decide +kernel : ∀ t : Fin grid0.N, _)
/-- The entangling row is one block. -/
theorem idx2 : ∀ t : Fin cfg0.N, win0_2.index t (0 : Fin 2) = 0 ∧ win0_2.index t (1 : Fin 2) = 0 :=
  (by decide +kernel : ∀ t : Fin grid0.N, _)
/-- The key tile's block index at point `t` is `(t % 8, 0)`. -/
theorem idx3 : ∀ t : Fin cfg0.N, win0_3.index t (0 : Fin 2) = t.val % 8 ∧ win0_3.index t (1 : Fin 2) = 0 :=
  (by decide +kernel : ∀ t : Fin grid0.N, _)

/-- The grid has 64 points. -/
theorem lt64 (t : Fin cfg0.N) : t.val < 64 := t.isLt.trans_eq N_0

/-- Row `r` of the query tile of point `t`, as a row of the input. -/
abbrev qrow (t : Fin cfg0.N) (r : Fin 1024) : Fin 8192 :=
  ⟨1024 * (t.val / 8) + r.val, by have := lt64 t; have := r.isLt; omega⟩

/-- Row `j` of the key tile of point `t`, as a row of the input. -/
abbrev krow (t : Fin cfg0.N) (j : Fin 1024) : Fin 8192 :=
  ⟨1024 * (t.val % 8) + j.val, by have := j.isLt; omega⟩

/-! ## The blocks at an index -/

/-- The query tile at (r, d): the input at row `1024 · (t / 8) + r`. -/
theorem iblk0_apply (c : Dev nD) (t : Fin cfg0.N) (r d : Fin 1024) :
    iblk m c 0 t (ix2 r d) = m ((c.tc : Thread nD τ).loc main_arg0) (ix2 (qrow t r) d) := by
  obtain ⟨e0, e1⟩ := idx0 t
  unfold iblk
  rw [View.read_apply]
  show (V m c main_v0 : S8192x1024.Idx → EReal) (((cfg0.win 0).blk t).view.emb (ix2 r d)) = _
  refine (congrFun (V_main_v0 m c) _).trans ?_
  refine congrArg (m ((c.tc : Thread nD τ).loc main_arg0)) (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 1024 + 1 * d.val = d.val; rw [e1]; omega

/-- The rotation's block at (k, d): the rotation at (k, d). -/
theorem iblk1_apply (c : Dev nD) (t : Fin cfg0.N) (k d : Fin 1024) :
    iblk m c 1 t (ix2 k d) = m ((c.tc : Thread nD τ).loc main_arg1) (ix2 k d) := by
  obtain ⟨e0, e1⟩ := idx1 t
  unfold iblk
  rw [View.read_apply]
  show (V m c main_v1 : S1024x1024.Idx → EReal) (((cfg0.win 1).blk t).view.emb (ix2 k d)) = _
  refine (congrFun (V_main_v1 m c) _).trans ?_
  refine congrArg (m ((c.tc : Thread nD τ).loc main_arg1)) (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * d.val = d.val; rw [e1]; omega

/-- The entangling row's block at (0, d): the entangling vector at `d`. -/
theorem iblk2_apply (c : Dev nD) (t : Fin cfg0.N) (d : Fin 1024) :
    iblk m c 2 t (ix2 (0 : Fin 1) d) = m ((c.tc : Thread nD τ).loc main_arg2) (ix1 d) := by
  obtain ⟨e0, e1⟩ := idx2 t
  unfold iblk
  rw [View.read_apply]
  show (V m c main_v2 : S1x1024.Idx → EReal) (((cfg0.win 2).blk t).view.emb (ix2 (0 : Fin 1) d)) = _
  refine Eq.trans (congrArg (V m c main_v2 : S1x1024.Idx → EReal) (funext fun a => Fin.ext ?_)) (V_main_v2_apply m c d)
  match a with
  | ⟨0, _⟩ => show win0_2.index t (0 : Fin 2) * 1 + 1 * 0 = 0; rw [e0]
  | ⟨1, _⟩ => show win0_2.index t (1 : Fin 2) * 1024 + 1 * d.val = d.val; rw [e1]; omega

/-- The key tile at (j, d): the input at row `1024 · (t % 8) + j`. -/
theorem iblk3_apply (c : Dev nD) (t : Fin cfg0.N) (j d : Fin 1024) :
    iblk m c 3 t (ix2 j d) = m ((c.tc : Thread nD τ).loc main_arg0) (ix2 (krow t j) d) := by
  obtain ⟨e0, e1⟩ := idx3 t
  unfold iblk
  rw [View.read_apply]
  show (V m c main_v0 : S8192x1024.Idx → EReal) (((cfg0.win 3).blk t).view.emb (ix2 j d)) = _
  refine (congrFun (V_main_v0 m c) _).trans ?_
  refine congrArg (m ((c.tc : Thread nD τ).loc main_arg0)) (funext fun a => Fin.ext ?_)
  match a with
  | ⟨0, _⟩ => show win0_3.index t (0 : Fin 2) * 1024 + 1 * j.val = 1024 * (t.val % 8) + j.val; rw [e0]; omega
  | ⟨1, _⟩ => show win0_3.index t (1 : Fin 2) * 1024 + 1 * d.val = d.val; rw [e1]; omega

end Cert.KernelIdeal.Blocks

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.Spec.lean ====
/-
  Single-head attention with a rotated query and an entangled key, as one function of the three argument arrays.

  For inputs `X` (8192 rows of 1024 features), a rotation `R` (1024 × 1024) and an entangling vector `e` (1024):
  the query rows are `X · R`, the key rows are `X` scaled feature by feature by `e`, the score of query row `i`
  against key row `j` is their dot product divided by √1024, each row of scores goes through a softmax, and the
  result is the softmax-weighted sum of the rows of `X`.
-/
import Idealize.ShloMosaic.PureOps.Ideal
import Idealize.ShloMosaic.Lib.ValueIdx
import proofs.«127219_j65481071402447_2_alg».proof.Proof.LibRowSoftmax

noncomputable section

open scoped BigOperators

namespace Cert.Attn

open Idealize.ShloMosaic Idealize.ShloMosaic.ValueIdx Cert.RowSoftmax

abbrev SX : Shape := ⟨2, ![8192, 1024]⟩
abbrev SR : Shape := ⟨2, ![1024, 1024]⟩
abbrev SE : Shape := ⟨1, ![1024]⟩

/-- Query row `i`, feature `d`: row `i` of `X` against column `d` of the rotation. -/
def query (X : SX.Idx → EReal) (R : SR.Idx → EReal) (i : Fin 8192) (d : Fin 1024) : EReal :=
  ∑ k : Fin 1024, X (ix2 i k) * R (ix2 k d)

/-- Key row `j`, feature `d`: the input scaled by the entangling vector. -/
def key (X : SX.Idx → EReal) (e : SE.Idx → EReal) (j : Fin 8192) (d : Fin 1024) : EReal :=
  X (ix2 j d) * e (ix1 d)

/-- The score of query row `i` against key row `j`: the dot product over √1024. -/
def logits (X : SX.Idx → EReal) (R : SR.Idx → EReal) (e : SE.Idx → EReal) (i j : Fin 8192) : EReal :=
  Ideal.div (∑ d : Fin 1024, query X R i d * key X e j d) (Ideal.sqrt (Ideal.ofBits .f32 0x44800000#32))

/-- The attention output: entry (i, c) is the softmax of row `i` of the scores against column `c` of `X`. -/
def attend (X : SX.Idx → EReal) (R : SR.Idx → EReal) (e : SE.Idx → EReal) : SX.Idx → EReal :=
  fun y => ∑ j : Fin 8192, rowSoftmax (fun j' : Fin 8192 => logits X R e (y 0) j') j * X (ix2 j (y 1))

theorem attend_ix2 (X : SX.Idx → EReal) (R : SR.Idx → EReal) (e : SE.Idx → EReal) (i : Fin 8192) (c : Fin 1024) :
    attend X R e (ix2 i c) = ∑ j : Fin 8192, rowSoftmax (fun j' : Fin 8192 => logits X R e i j') j * X (ix2 j c) := rfl

end Cert.Attn

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibOnlineSoftmax.lean ====
/-
  The running ("online") softmax, on the extended reals.

  A row of scores is met block by block. After each block one keeps the greatest score so far `m`, the sum `l` of the
  exponentials of the scores so far shifted by `m`, and for every output column `c` the sum `acc c` of those exponentials
  times the value rows. When a new block raises the maximum, the old sums are rescaled by `exp (m_old − m_new)`;
  since `exp a · exp b = exp (a + b)` on the reals, the rescaled sums are the sums shifted by the new maximum. After the
  last block `acc c / l` is the softmax-weighted sum of the value rows: `∑ J, softmax(r) J · X J c`.

  Before the first block `m = −∞`, `l = 0`, `acc = 0`; the first rescaling factor is `exp (−∞) = 0`.
-/
import Idealize.ShloMosaic.PureOps.Ideal
import proofs.«127219_j65481071402447_2_alg».proof.Proof.LibRowSoftmax
import proofs.«127219_j65481071402447_2_alg».proof.Proof.LibRealEntries

noncomputable section

open scoped BigOperators

namespace Cert.Online

open Idealize.ShloMosaic Cert.RowSoftmax Cert.LibRealEntries

variable {B : ℕ} {C : Type}

/-! ## Real sums and the two constants -/

/-- The coercion of a finite sum of reals is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The f32 pattern `0x3D000000` denotes 1/32. -/
theorem ofBits_inv32 : Ideal.ofBits .f32 0x3D000000#32 = ((1 / 32 : ℝ) : EReal) := by
  simp [Ideal.ofBits, Ideal.ieee, -EReal.coe_mul]; norm_num

/-- The f32 pattern `0x44800000` denotes 1024. -/
theorem ofBits_1024 : Ideal.ofBits .f32 0x44800000#32 = ((1024 : ℝ) : EReal) := by
  simp [Ideal.ofBits, Ideal.ieee, -EReal.coe_mul]; norm_num

/-- √1024 = 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- The greatest score after the first `k` blocks (−∞ before the first). -/
def runMax (s : ℕ → Fin B → EReal) : ℕ → EReal
  | 0 => ⊥
  | k + 1 => max (runMax s k) (rowMax (s k))

/-- The running sum of shifted exponentials after the first `k` blocks. -/
def runSum (s : ℕ → Fin B → EReal) : ℕ → EReal
  | 0 => 0
  | k + 1 => Ideal.exp (runMax s k - runMax s (k + 1)) * runSum s k + ∑ j : Fin B, Ideal.exp (s k j - runMax s (k + 1))

/-- The running weighted sum of the value rows, at column `c`, after the first `k` blocks. -/
def runAcc (s : ℕ → Fin B → EReal) (x : ℕ → Fin B → C → EReal) (c : C) : ℕ → EReal
  | 0 => 0
  | k + 1 => Ideal.exp (runMax s k - runMax s (k + 1)) * runAcc s x c k
      + ∑ j : Fin B, Ideal.exp (s k j - runMax s (k + 1)) * x k j c

/-! ## The greatest entry of a row, and of the blocks met so far -/

theorem le_rowMax {m : ℕ} (r : Fin m → EReal) (j : Fin m) : r j ≤ rowMax r :=
  (Finset.le_fold_max _).mpr (Or.inr ⟨j, Finset.mem_univ j, le_rfl⟩)

theorem rowMax_le {m : ℕ} (r : Fin m → EReal) (c : EReal) (h : ∀ j, r j ≤ c) : rowMax r ≤ c := by
  unfold rowMax
  rw [negInf_eq_bot]
  exact (Finset.fold_max_le _).mpr ⟨bot_le, fun j _ => h j⟩

/-- The greatest entry of a nonempty row of real entries is real. -/
theorem isReal_rowMax {m : ℕ} (hm : 0 < m) (r : Fin m → EReal) (h : ∀ j, IsReal (r j)) : IsReal (rowMax r) := by
  unfold rowMax
  rw [negInf_eq_bot]
  exact isReal_fold_max _ _ ⟨⟨0, hm⟩, Finset.mem_univ _⟩ fun j _ => h j

/-- Every score of an earlier block is at most the running maximum. -/
theorem le_runMax (s : ℕ → Fin B → EReal) {k' k : ℕ} (h : k' < k) (j : Fin B) : s k' j ≤ runMax s k := by
  induction k with
  | zero => exact absurd h (Nat.not_lt_zero _)
  | succ k ih =>
    show s k' j ≤ max (runMax s k) (rowMax (s k))
    rcases Nat.lt_succ_iff_lt_or_eq.mp h with h' | h'
    · exact le_max_of_le_left (ih h')
    · subst h'; exact le_max_of_le_right (le_rowMax _ j)

/-- A bound of every score of the earlier blocks bounds the running maximum. -/
theorem runMax_le (s : ℕ → Fin B → EReal) (c : EReal) (k : ℕ) (h : ∀ k', k' < k → ∀ j, s k' j ≤ c) : runMax s k ≤ c := by
  induction k with
  | zero => exact bot_le
  | succ k ih =>
    show max (runMax s k) (rowMax (s k)) ≤ c
    exact max_le (ih fun k' hk' j => h k' (Nat.lt_succ_of_lt hk') j) (rowMax_le _ _ fun j => h k (Nat.lt_succ_self k) j)

/-! ## The running values only look at the blocks met so far -/

theorem runMax_congr {s s' : ℕ → Fin B → EReal} (k : ℕ) (h : ∀ k', k' < k → ∀ j, s k' j = s' k' j) :
    runMax s k = runMax s' k := by
  induction k with
  | zero => rfl
  | succ k ih =>
    show max (runMax s k) (rowMax (s k)) = max (runMax s' k) (rowMax (s' k))
    rw [ih fun k' hk' j => h k' (Nat.lt_succ_of_lt hk') j, show s k = s' k from funext (h k (Nat.lt_succ_self k))]

theorem runSum_congr {s s' : ℕ → Fin B → EReal} (k : ℕ) (h : ∀ k', k' < k → ∀ j, s k' j = s' k' j) :
    runSum s k = runSum s' k := by
  induction k with
  | zero => rfl
  | succ k ih =>
    have h0 : ∀ k', k' < k → ∀ j, s k' j = s' k' j := fun k' hk' j => h k' (Nat.lt_succ_of_lt hk') j
    show Ideal.exp (runMax s k - runMax s (k + 1)) * runSum s k + ∑ j : Fin B, Ideal.exp (s k j - runMax s (k + 1))
      = Ideal.exp (runMax s' k - runMax s' (k + 1)) * runSum s' k + ∑ j : Fin B, Ideal.exp (s' k j - runMax s' (k + 1))
    rw [ih h0, runMax_congr k h0, runMax_congr (k + 1) h, show s k = s' k from funext (h k (Nat.lt_succ_self k))]

theorem runAcc_congr {s s' : ℕ → Fin B → EReal} {x x' : ℕ → Fin B → C → EReal} (c : C) (k : ℕ)
    (h : ∀ k', k' < k → ∀ j, s k' j = s' k' j) (hx : ∀ k', k' < k → ∀ j, x k' j c = x' k' j c) :
    runAcc s x c k = runAcc s' x' c k := by
  induction k with
  | zero => rfl
  | succ k ih =>
    have h0 : ∀ k', k' < k → ∀ j, s k' j = s' k' j := fun k' hk' j => h k' (Nat.lt_succ_of_lt hk') j
    have hx0 : ∀ k', k' < k → ∀ j, x k' j c = x' k' j c := fun k' hk' j => hx k' (Nat.lt_succ_of_lt hk') j
    show Ideal.exp (runMax s k - runMax s (k + 1)) * runAcc s x c k
        + ∑ j : Fin B, Ideal.exp (s k j - runMax s (k + 1)) * x k j c
      = Ideal.exp (runMax s' k - runMax s' (k + 1)) * runAcc s' x' c k
        + ∑ j : Fin B, Ideal.exp (s' k j - runMax s' (k + 1)) * x' k j c
    rw [ih h0 hx0, runMax_congr k h0, runMax_congr (k + 1) h, show s k = s' k from funext (h k (Nat.lt_succ_self k))]
    exact congrArg _ (Finset.sum_congr rfl fun j _ => by rw [hx k (Nat.lt_succ_self k) j])

/-! ## Blocks of real scores: the running sums are the sums shifted by the running maximum -/

/-- Rescaling sums shifted by `μ` by `exp (μ − μ')` gives the sums shifted by `μ'`: `exp a · exp b = exp (a + b)`. -/
theorem rescale (μ μ' : ℝ) (k : ℕ) (σ χ : ℕ → Fin B → ℝ) :
    Ideal.exp ((μ : EReal) - μ') * ∑ k' ∈ Finset.range k, ∑ j : Fin B, Ideal.exp ((σ k' j : EReal) - μ) * (χ k' j : EReal)
      = ∑ k' ∈ Finset.range k, ∑ j : Fin B, Ideal.exp ((σ k' j : EReal) - μ') * (χ k' j : EReal) := by
  simp only [← EReal.coe_sub, Ideal.exp_coe, ← EReal.coe_mul, ← coe_sum]
  rw [EReal.coe_eq_coe_iff, Finset.mul_sum]
  refine Finset.sum_congr rfl fun k' _ => ?_
  rw [Finset.mul_sum]
  refine Finset.sum_congr rfl fun j _ => ?_
  rw [← mul_assoc, ← Real.exp_add]
  congr 2
  ring

/-- The same without weights. -/
theorem rescale_one (μ μ' : ℝ) (k : ℕ) (σ : ℕ → Fin B → ℝ) :
    Ideal.exp ((μ : EReal) - μ') * ∑ k' ∈ Finset.range k, ∑ j : Fin B, Ideal.exp ((σ k' j : EReal) - μ)
      = ∑ k' ∈ Finset.range k, ∑ j : Fin B, Ideal.exp ((σ k' j : EReal) - μ') := by
  simp only [← EReal.coe_sub, Ideal.exp_coe, ← EReal.coe_mul, ← coe_sum]
  rw [EReal.coe_eq_coe_iff, Finset.mul_sum]
  refine Finset.sum_congr rfl fun k' _ => ?_
  rw [Finset.mul_sum]
  refine Finset.sum_congr rfl fun j _ => ?_
  rw [← Real.exp_add]
  congr 1
  ring

section RealBlocks

variable (s : ℕ → Fin B → EReal) (x : ℕ → Fin B → C → EReal) (c : C) (σ χ : ℕ → Fin B → ℝ)
  (hσ : ∀ k j, s k j = (σ k j : EReal)) (hχ : ∀ k j, x k j c = (χ k j : EReal))

include hσ in
/-- After at least one block of `B ≥ 1` real scores the running maximum is real. -/
theorem isReal_runMax (hB : 0 < B) (k : ℕ) (hk : 0 < k) : IsReal (runMax s k) := by
  induction k with
  | zero => exact absurd hk (lt_irrefl 0)
  | succ k ih =>
    have hrow : IsReal (rowMax (s k)) := isReal_rowMax hB _ fun j => ⟨_, hσ k j⟩
    show IsReal (max (runMax s k) (rowMax (s k)))
    rcases Nat.eq_zero_or_pos k with h0 | hpos
    · subst h0
      show IsReal (max ⊥ (rowMax (s 0)))
      rw [max_eq_right bot_le]; exact hrow
    · exact (ih hpos).max hrow

include hσ in
/-- The running sum is the sum of the exponentials of the scores met so far, shifted by the running maximum. -/
theorem runSum_real (hB : 0 < B) (k : ℕ) :
    runSum s k = ∑ k' ∈ Finset.range k, ∑ j : Fin B, Ideal.exp (s k' j - runMax s k) := by
  induction k with
  | zero => show (0 : EReal) = _; rw [Finset.range_zero, Finset.sum_empty]
  | succ k ih =>
    show Ideal.exp (runMax s k - runMax s (k + 1)) * runSum s k + ∑ j : Fin B, Ideal.exp (s k j - runMax s (k + 1)) = _
    rw [Finset.sum_range_succ, ih]
    congr 1
    rcases Nat.eq_zero_or_pos k with h0 | hpos
    · subst h0; simp
    · obtain ⟨μ, hμ⟩ := isReal_runMax s σ hσ hB k hpos
      obtain ⟨μ', hμ'⟩ := isReal_runMax s σ hσ hB (k + 1) (Nat.succ_pos k)
      rw [hμ, hμ']
      simp only [hσ]
      exact rescale_one μ μ' k σ

include hσ hχ in
/-- The running weighted sum is the weighted sum of those shifted exponentials. -/
theorem runAcc_real (hB : 0 < B) (k : ℕ) :
    runAcc s x c k = ∑ k' ∈ Finset.range k, ∑ j : Fin B, Ideal.exp (s k' j - runMax s k) * x k' j c := by
  induction k with
  | zero => show (0 : EReal) = _; rw [Finset.range_zero, Finset.sum_empty]
  | succ k ih =>
    show Ideal.exp (runMax s k - runMax s (k + 1)) * runAcc s x c k
      + ∑ j : Fin B, Ideal.exp (s k j - runMax s (k + 1)) * x k j c = _
    rw [Finset.sum_range_succ, ih]
    congr 1
    rcases Nat.eq_zero_or_pos k with h0 | hpos
    · subst h0; simp
    · obtain ⟨μ, hμ⟩ := isReal_runMax s σ hσ hB k hpos
      obtain ⟨μ', hμ'⟩ := isReal_runMax s σ hσ hB (k + 1) (Nat.succ_pos k)
      rw [hμ, hμ']
      simp only [hσ, hχ]
      exact rescale μ μ' k σ χ

include hσ hχ in
/-- After `n ≥ 1` blocks the quotient of the two running sums is the sum of the quotients, term by term: every
    term is real and the running sum is positive. -/
theorem div_real (hB : 0 < B) (n : ℕ) (hn : 0 < n) :
    Ideal.div (runAcc s x c n) (runSum s n)
      = ∑ k ∈ Finset.range n, ∑ j : Fin B, Ideal.div (Ideal.exp (s k j - runMax s n)) (runSum s n) * x k j c := by
  obtain ⟨μ, hμ⟩ := isReal_runMax s σ hσ hB n hn
  have hL : (0 : ℝ) < ∑ k ∈ Finset.range n, ∑ j : Fin B, Real.exp (σ k j - μ) :=
    Finset.sum_pos (fun k _ => Finset.sum_pos (fun j _ => Real.exp_pos _) ⟨⟨0, hB⟩, Finset.mem_univ _⟩)
      ⟨0, Finset.mem_range.mpr hn⟩
  rw [runAcc_real s x c σ χ hσ hχ hB n, runSum_real s σ hσ hB n, hμ]
  simp only [hσ, hχ, ← EReal.coe_sub, Ideal.exp_coe, ← EReal.coe_mul, ← coe_sum, Ideal.div_coe hL.ne']
  rw [EReal.coe_eq_coe_iff, Finset.sum_mul]
  refine Finset.sum_congr rfl fun k _ => ?_
  rw [Finset.sum_mul]
  refine Finset.sum_congr rfl fun j _ => ?_
  ring

end RealBlocks

/-! ## A row of `n·B` entries, block by block -/

/-- A sum over a row of `n·B` entries is the sum over the blocks of the sums within each block. -/
theorem sum_blocks (n : ℕ) (f : Fin (n * B) → EReal) (F : ℕ → Fin B → EReal)
    (h : ∀ (k : Fin n) (j : Fin B), f (finProdFinEquiv (k, j)) = F k j) :
    ∑ J : Fin (n * B), f J = ∑ k ∈ Finset.range n, ∑ j : Fin B, F k j :=
  calc ∑ J : Fin (n * B), f J = ∑ p : Fin n × Fin B, f (finProdFinEquiv p) := (Equiv.sum_comp finProdFinEquiv f).symm
    _ = ∑ k : Fin n, ∑ j : Fin B, f (finProdFinEquiv (k, j)) := Fintype.sum_prod_type _
    _ = ∑ k : Fin n, ∑ j : Fin B, F k j := Finset.sum_congr rfl fun k _ => Finset.sum_congr rfl fun j _ => h k j
    _ = ∑ k ∈ Finset.range n, ∑ j : Fin B, F k j := Fin.sum_univ_eq_sum_range (fun k => ∑ j : Fin B, F k j) n

/-- The greatest entry of the whole row is the running maximum after the last block. -/
theorem rowMax_eq_runMax (n : ℕ) (r : Fin (n * B) → EReal) (s : ℕ → Fin B → EReal)
    (h : ∀ (k : Fin n) (j : Fin B), r (finProdFinEquiv (k, j)) = s k j) : rowMax r = runMax s n := by
  apply le_antisymm
  · refine rowMax_le _ _ fun J => ?_
    have e := h (finProdFinEquiv.symm J).1 (finProdFinEquiv.symm J).2
    rw [Prod.mk.eta, Equiv.apply_symm_apply] at e
    rw [e]
    exact le_runMax s (finProdFinEquiv.symm J).1.isLt _
  · refine runMax_le s _ n fun k hk j => ?_
    rw [← h ⟨k, hk⟩ j]
    exact le_rowMax r _

/-- THE LAW. For a row `r` of `N = n·B` real scores and real value rows `X`, met in `n ≥ 1` blocks of `B ≥ 1`:
    the running weighted sum over the running sum is the softmax-weighted sum of the value rows. -/
theorem online_eq_softmax (n N : ℕ) (hn : 0 < n) (hB : 0 < B) (hN : N = n * B)
    (r : Fin N → EReal) (X : Fin N → C → EReal) (hr : ∀ J, IsReal (r J)) (hX : ∀ J c, IsReal (X J c))
    (s : ℕ → Fin B → EReal) (x : ℕ → Fin B → C → EReal)
    (hs : ∀ k (hk : k < n) (j : Fin B), s k j = r ⟨k * B + j.val, by subst hN; exact (Nat.add_lt_add_left j.isLt _).trans_le (by rw [← Nat.succ_mul]; exact Nat.mul_le_mul_right _ hk)⟩)
    (hx : ∀ k (hk : k < n) (j : Fin B) c, x k j c = X ⟨k * B + j.val, by subst hN; exact (Nat.add_lt_add_left j.isLt _).trans_le (by rw [← Nat.succ_mul]; exact Nat.mul_le_mul_right _ hk)⟩ c)
    (c : C) :
    Ideal.div (runAcc s x c n) (runSum s n) = ∑ J : Fin N, rowSoftmax r J * X J c := by
  subst hN
  have hsr : ∀ k, k < n → ∀ j, IsReal (s k j) := fun k hk j => by rw [hs k hk j]; exact hr _
  have hxr : ∀ k, k < n → ∀ j, IsReal (x k j c) := fun k hk j => by rw [hx k hk j c]; exact hX _ _
  -- real sequences that agree with the blocks on the first `n` blocks
  let σ : ℕ → Fin B → ℝ := fun k j => (s k j).toReal
  let χ : ℕ → Fin B → ℝ := fun k j => (x k j c).toReal
  let S : ℕ → Fin B → EReal := fun k j => (σ k j : EReal)
  let Y : ℕ → Fin B → C → EReal := fun k j _ => (χ k j : EReal)
  have hS : ∀ k, k < n → ∀ j, s k j = S k j := fun k hk j => by
    obtain ⟨t, ht⟩ := hsr k hk j
    show s k j = (((s k j).toReal : ℝ) : EReal)
    rw [ht, EReal.toReal_coe]
  have hY : ∀ k, k < n → ∀ j, x k j c = Y k j c := fun k hk j => by
    obtain ⟨t, ht⟩ := hxr k hk j
    show x k j c = (((x k j c).toReal : ℝ) : EReal)
    rw [ht, EReal.toReal_coe]
  have hSum : runSum s n = runSum S n := runSum_congr n hS
  have hAcc : runAcc s x c n = runAcc S Y c n := runAcc_congr c n hS hY
  -- the row, read block by block
  have hrS : ∀ (k : Fin n) (j : Fin B), r (finProdFinEquiv (k, j)) = S k j := fun k j => by
    rw [← hS k k.isLt j, hs k k.isLt j]
    refine congrArg r (Fin.ext ?_)
    show (j : ℕ) + B * (k : ℕ) = (k : ℕ) * B + (j : ℕ)
    rw [Nat.add_comm, Nat.mul_comm]
  have hXY : ∀ (k : Fin n) (j : Fin B), X (finProdFinEquiv (k, j)) c = Y k j c := fun k j => by
    rw [← hY k k.isLt j, hx k k.isLt j c]
    refine congrArg (fun J => X J c) (Fin.ext ?_)
    show (j : ℕ) + B * (k : ℕ) = (k : ℕ) * B + (j : ℕ)
    rw [Nat.add_comm, Nat.mul_comm]
  have hrow : rowMax r = runMax S n := rowMax_eq_runMax n r S hrS
  have hden : ∑ K : Fin (n * B), Ideal.exp (r K - rowMax r) = runSum S n := by
    rw [runSum_real S σ (fun _ _ => rfl) hB n, hrow]
    exact sum_blocks n _ _ fun k j => by rw [hrS k j]
  rw [hAcc, hSum, div_real S Y c σ χ (fun _ _ => rfl) (fun _ _ => rfl) hB n hn]
  symm
  refine sum_blocks n _ _ fun k j => ?_
  show rowSoftmax r (finProdFinEquiv (k, j)) * X (finProdFinEquiv (k, j)) c = _
  unfold rowSoftmax
  rw [hden, hrow, hrS k j, hXY k j]

/-- The scale 1/32 folded into one factor of a dot product of reals is the dot product divided by √1024. -/
theorem scaled_dot {D : ℕ} (q k : Fin D → EReal) (hq : ∀ d, IsReal (q d)) (hk : ∀ d, IsReal (k d)) :
    ∑ d : Fin D, (q d * Ideal.ofBits .f32 0x3D000000#32) * k d
      = Ideal.div (∑ d : Fin D, q d * k d) (Ideal.sqrt (Ideal.ofBits .f32 0x44800000#32)) := by
  choose a ha using hq
  choose b hb using hk
  rw [ofBits_inv32, ofBits_1024, sqrt_1024, Ideal.div_coe (by norm_num : (32 : ℝ) ≠ 0)]
  simp only [ha, hb, ← EReal.coe_mul, ← coe_sum]
  congr 1
  rw [Finset.sum_mul]
  exact Finset.sum_congr rfl fun d _ => by ring

end Cert.Online

end
-- ==== Proof.OnlineAttend.lean ====
/-
  The attention output as a running softmax over eight blocks of 1024 key rows.

  For query row `i`, the scores against the `k`-th block of key rows — with the scale 1/32 folded into the query — and the
  `k`-th block of value rows are met one block after the other, keeping the running maximum, the running sum of
  shifted exponentials and the running weighted sums. With real inputs every score is real: a query entry is a finite
  sum of products of reals, a key entry a product of reals, and a scaled dot product of reals is the dot product
  divided by √1024 = 32. So after the eighth block the weighted sum over the running sum is the softmax of the whole row
  of scores against the values: the attention output at (i, c).
-/
import proofs.«127219_j65481071402447_2_alg».proof.Proof.Spec
import proofs.«127219_j65481071402447_2_alg».proof.Proof.LibOnlineSoftmax
import proofs.«127219_j65481071402447_2_alg».proof.Proof.LibRealEntries

noncomputable section

open scoped BigOperators

namespace Cert.Attn

open Idealize.ShloMosaic Idealize.ShloMosaic.ValueIdx Cert.RowSoftmax Cert.LibRealEntries Cert.Online

/-- Row `j` of the `k`-th block of 1024 rows, as a row of the 8192. -/
def rowOf (k : ℕ) (j : Fin 1024) : Fin 8192 := ⟨(1024 * k + j.val) % 8192, Nat.mod_lt _ (by decide)⟩

/-- The scores of query row `i` against the `k`-th block of key rows, the scale 1/32 folded into the query. -/
def scoreK (X : SX.Idx → EReal) (R : SR.Idx → EReal) (e : SE.Idx → EReal) (i : Fin 8192) (k : ℕ) (j : Fin 1024) : EReal :=
  ∑ d : Fin 1024, (query X R i d * Ideal.ofBits .f32 0x3D000000#32) * key X e (rowOf k j) d

/-- The `k`-th block of value rows. -/
def valK (X : SX.Idx → EReal) (k : ℕ) (j : Fin 1024) (cc : Fin 1024) : EReal := X (ix2 (rowOf k j) cc)

/-- Within the eight blocks no wrap-around happens: the row is `1024 · k + j`. -/
theorem rowOf_lt (k : ℕ) (hk : k < 8) (j : Fin 1024) :
    rowOf k j = ⟨1024 * k + j.val, by have := j.isLt; omega⟩ := by
  apply Fin.ext
  show (1024 * k + j.val) % 8192 = 1024 * k + j.val
  exact Nat.mod_eq_of_lt (by have := j.isLt; omega)

/-- The same with the block number first in the product. -/
theorem rowOf_eq (k : ℕ) (hk : k < 8) (j : Fin 1024) (h : k * 1024 + j.val < 8192) :
    rowOf k j = ⟨k * 1024 + j.val, h⟩ := by
  apply Fin.ext
  show (1024 * k + j.val) % 8192 = k * 1024 + j.val
  rw [Nat.mod_eq_of_lt (by have := j.isLt; omega), Nat.mul_comm]

variable (X : SX.Idx → EReal) (R : SR.Idx → EReal) (e : SE.Idx → EReal)

/-- A query entry of real inputs is real. -/
theorem isReal_query (hX : ∀ y, IsReal (X y)) (hR : ∀ y, IsReal (R y)) (i : Fin 8192) (d : Fin 1024) :
    IsReal (query X R i d) :=
  isReal_sum _ _ fun k _ => (hX _).mul (hR _)

/-- A key entry of real inputs is real. -/
theorem isReal_key (hX : ∀ y, IsReal (X y)) (he : ∀ y, IsReal (e y)) (j : Fin 8192) (d : Fin 1024) :
    IsReal (key X e j d) :=
  (hX _).mul (he _)

/-- A real divided by √1024 = 32 is real. -/
theorem isReal_div_sqrt1024 {x : EReal} (hx : IsReal x) :
    IsReal (Ideal.div x (Ideal.sqrt (Ideal.ofBits .f32 0x44800000#32))) := by
  rw [ofBits_1024, sqrt_1024, Ideal.div_coe (by norm_num : (32 : ℝ) ≠ 0)]
  exact hx.mul (isReal_coe _)

/-- Every score of real inputs is real. -/
theorem isReal_logits (hX : ∀ y, IsReal (X y)) (hR : ∀ y, IsReal (R y)) (he : ∀ y, IsReal (e y)) (i j : Fin 8192) :
    IsReal (logits X R e i j) :=
  isReal_div_sqrt1024 (isReal_sum _ _ fun d _ => (isReal_query X R hX hR i d).mul (isReal_key X e hX he j d))

/-- The block scores with the folded scale are the scores of the block's rows. -/
theorem scoreK_eq_logits (hX : ∀ y, IsReal (X y)) (hR : ∀ y, IsReal (R y)) (he : ∀ y, IsReal (e y)) (i : Fin 8192)
    (k : ℕ) (j : Fin 1024) : scoreK X R e i k j = logits X R e i (rowOf k j) :=
  scaled_dot (query X R i) (key X e (rowOf k j)) (isReal_query X R hX hR i) (isReal_key X e hX he (rowOf k j))

/-- The running softmax over the eight blocks gives the attention output. -/
theorem online_attend (hX : ∀ y, IsReal (X y)) (hR : ∀ y, IsReal (R y)) (he : ∀ y, IsReal (e y)) (i : Fin 8192)
    (cc : Fin 1024) :
    Ideal.div (runAcc (scoreK X R e i) (valK X) cc 8) (runSum (scoreK X R e i) 8) = attend X R e (ix2 i cc) := by
  rw [attend_ix2]
  exact online_eq_softmax (B := 1024) (C := Fin 1024) 8 8192 (by decide) (by decide) (by norm_num)
    (fun J => logits X R e i J) (fun J c => X (ix2 J c))
    (fun J => isReal_logits X R e hX hR he i J) (fun J c => hX _)
    (scoreK X R e i) (valK X)
    (fun k hk j => (scoreK_eq_logits X R e hX hR he i k j).trans (congrArg (logits X R e i) (rowOf_eq k hk j _)))
    (fun k hk j c => congrArg (fun J => X (ix2 J c)) (rowOf_eq k hk j _))
    cc

end Cert.Attn

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.KIPayloads.lean ====
/-
  The kernel's payloads read at an index, at the ideal instance.

  Each payload is a pure value the attention kernel's body stores, as a function of the vectors it loaded. Read on
  the extended reals at one entry, every pointwise operation is the scalar operation at that entry, a matrix product
  into zeros is a finite sum of products, a lane reduction is the row's maximum or sum, and the casts and broadcasts of
  a column or a row read the entry they copy. The payloads of one step of the running softmax then read:

    scores      s (r, j)   = ∑ d, q (r, d) · (k (j, d) · w (0, d))
    maximum     m' (r)     = max (m (r)) (max_j s (r, j))
    weights     p (r, j)   = exp (s (r, j) − m' (r))
    rescaling   α (r)      = exp (m (r) − m' (r))
    sum         l' (r)     = α (r) · l (r) + ∑ j, p (r, j)
    accumulator a' (r, c)  = α (r) · a (r, c) + ∑ j, p (r, j) · v (j, c)
    output      o (r, c)   = a (r, c) / l (r)
-/
import proofs.«127219_j65481071402447_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«127219_j65481071402447_2_alg».proof.Proof.LibPlainMatmul
import proofs.«127219_j65481071402447_2_alg».proof.Proof.LibMatmulNT
import proofs.«127219_j65481071402447_2_alg».proof.Proof.LibRowSoftmax
import proofs.«127219_j65481071402447_2_alg».proof.Proof.LibColRowBroadcast

noncomputable section

open scoped BigOperators

namespace Cert.KernelIdeal.Pay

open Cert.KernelIdeal Cert.KernelIdeal.Gen Idealize.ShloMosaic Idealize.ShloMosaic.ValueIdx

/-! ## Casts to the same shape, and the three initial values -/

theorem pay1_eq (v35 : FVec Ideal S1024x1024 .f32) : k0_pay1 (F := Ideal) v35 = v35 :=
  shapeCast_self v35 _

theorem pay2_eq (v16 : FVec Ideal S1024x1 .f32) : k0_pay2 (F := Ideal) v16 = v16 :=
  shapeCast_self v16 _

theorem pay8_eq (v3 : Vec Ideal S1024x1024 .bf16) : k0_pay8 (F := Ideal) v3 = v3 :=
  shapeCast_self v3 _

/-- The running maximum starts at −∞. -/
theorem pay5_apply (r : Fin 1024) :
    k0_pay5 (F := Ideal) (ix2 r (0 : Fin 1)) = Ideal.ofBits .f32 0xFF800000#32 := by
  unfold k0_pay5
  exact congrFun (shapeCast_self _ _) _

/-- The running sum starts at zero. -/
theorem pay6_apply (r : Fin 1024) :
    k0_pay6 (F := Ideal) (ix2 r (0 : Fin 1)) = Ideal.ofBits .f32 0x00000000#32 := by
  unfold k0_pay6
  exact congrFun (shapeCast_self _ _) _

/-- The accumulator starts at zero. -/
theorem pay7_apply (r c : Fin 1024) :
    k0_pay7 (F := Ideal) (ix2 r c) = Ideal.ofBits .f32 0x00000000#32 := by
  unfold k0_pay7
  exact congrFun (shapeCast_self _ _) _

/-! ## The two matrix products, at an entry -/

/-- The plain product (left axis 1 against right axis 0) into zeros, at (r, d): `∑ k, lhs (r, k) · rhs (k, d)`. -/
theorem matmulPlain_apply (lhs rhs : FVec Ideal S1024x1024 .bf16) (r d : Fin 1024) :
    matmul (F := Ideal) dot_S1024x1024_S1024x1024_S1024x1024_1_0_0_1_n_n none lhs rhs (constant (F := Ideal) S1024x1024 .f32 0x00000000#32) (ix2 r d)
      = ∑ k : Fin 1024, lhs (ix2 r k) * rhs (ix2 k d) :=
  Cert.PlainMatmul.matmul_zero_apply 1024 1024 1024 (φ₁ := .bf16) (φ₂ := .bf16) none lhs rhs r d

/-- The product contracting the last axis of both operands into zeros, at (r, j): `∑ d, lhs (r, d) · rhs (j, d)`. -/
theorem matmulNT_apply (lhs rhs : FVec Ideal S1024x1024 .bf16) (r j : Fin 1024) :
    matmul (F := Ideal) dot_S1024x1024_S1024x1024_S1024x1024_1_1_0_0_n_n none lhs rhs (constant (F := Ideal) S1024x1024 .f32 0x00000000#32) (ix2 r j)
      = ∑ d : Fin 1024, lhs (ix2 r d) * rhs (ix2 j d) :=
  Cert.MatmulNT.matmul_zero_apply 1024 1024 1024 (φ₁ := .bf16) (φ₂ := .bf16) none lhs rhs r j

/-! ## The scaled query block -/

/-- The query block times the key weights, scaled by 1/32. -/
theorem pay4_apply (v45 v47 : Vec Ideal S1024x1024 .bf16) (r d : Fin 1024) :
    k0_pay4 (F := Ideal) v45 v47 (ix2 r d)
      = (∑ k : Fin 1024, v45 (ix2 r k) * v47 (ix2 k d)) * Ideal.ofBits .f32 0x3D000000#32 := by
  have hM := matmulPlain_apply v45 v47 r d
  unfold k0_pay4
  simp only [shapeCast_self]
  generalize matmul (F := Ideal) dot_S1024x1024_S1024x1024_S1024x1024_1_0_0_1_n_n none v45 v47 (constant (F := Ideal) S1024x1024 .f32 0x00000000#32) = M at hM ⊢
  rw [← hM]
  rfl

/-- The exponential of a vector at an index is the exponential of its entry there. -/
theorem exp_apply {s : Shape} {φ : FTy} (a : FVec Ideal s φ) (i : s.Idx) : exp a i = Ideal.exp (a i) := rfl

/-! ## One step of the running softmax -/

/-- The scores: the scaled queries against the keys weighted along the contracted axis. -/
theorem pay9_apply (v3 : Vec Ideal S1024x1024 .bf16) (v6 : Vec Ideal S1x1024 .f32) (v11 : Vec Ideal S1024x1024 .bf16)
    (r j : Fin 1024) :
    k0_pay9 (F := Ideal) v3 v6 v11 (ix2 r j)
      = ∑ d : Fin 1024, v11 (ix2 r d) * (v3 (ix2 j d) * v6 (ix2 (0 : Fin 1) d)) := by
  unfold k0_pay9
  rw [pay8_eq, shapeCast_self]
  refine (matmulNT_apply v11 _ r j).trans ?_
  refine Finset.sum_congr rfl fun d _ => congrArg (v11 (ix2 r d) * ·) ?_
  refine (truncf_apply (φ := .f32) (ψ := .bf16) _ bitsLt_bf16_f32 (ix2 j d)).trans ?_
  refine (mulf_apply _ _ _).trans ?_
  exact congrArg₂ (· * ·) (extf_apply (φ := .bf16) (ψ := .f32) v3 bitsLt_bf16_f32 (ix2 j d))
    (Cert.ColRowBroadcast.rowBroadcast_apply _ _ j d)

/-- The weights: the scores shifted by the new maximum, exponentiated. -/
theorem pay11_apply (v3 : Vec Ideal S1024x1024 .bf16) (v6 : Vec Ideal S1x1024 .f32) (v11 : Vec Ideal S1024x1024 .bf16)
    (v13 : Vec Ideal S1024x1 .f32) (r j : Fin 1024) :
    k0_pay11 (F := Ideal) v3 v6 v11 v13 (ix2 r j)
      = Ideal.exp (k0_pay9 (F := Ideal) v3 v6 v11 (ix2 r j) - k0_pay10 (F := Ideal) v3 v6 v11 v13 (ix2 r 0)) := by
  unfold k0_pay11
  generalize k0_pay10 (F := Ideal) v3 v6 v11 v13 = m
  generalize k0_pay9 (F := Ideal) v3 v6 v11 = A
  refine (exp_apply _ _).trans (congrArg Ideal.exp ?_)
  refine (subf_apply _ _ _).trans (congrArg (A (ix2 r j) - ·) ?_)
  exact Cert.ColRowBroadcast.colBroadcast_apply _ _ r j

/-- The rescaling factor of the old sums. -/
theorem pay12_apply (v3 : Vec Ideal S1024x1024 .bf16) (v6 : Vec Ideal S1x1024 .f32) (v11 : Vec Ideal S1024x1024 .bf16)
    (v13 : Vec Ideal S1024x1 .f32) (r : Fin 1024) :
    k0_pay12 (F := Ideal) v3 v6 v11 v13 (ix2 r (0 : Fin 1))
      = Ideal.exp (v13 (ix2 r 0) - k0_pay10 (F := Ideal) v3 v6 v11 v13 (ix2 r 0)) := by
  unfold k0_pay12
  generalize k0_pay10 (F := Ideal) v3 v6 v11 v13 = m
  rfl

/-- The new running maximum. -/
theorem pay10_apply (v3 : Vec Ideal S1024x1024 .bf16) (v6 : Vec Ideal S1x1024 .f32) (v11 : Vec Ideal S1024x1024 .bf16)
    (v13 : Vec Ideal S1024x1 .f32) (r : Fin 1024) :
    k0_pay10 (F := Ideal) v3 v6 v11 v13 (ix2 r (0 : Fin 1))
      = max (v13 (ix2 r 0)) (Cert.RowSoftmax.rowMax (fun j : Fin 1024 => k0_pay9 (F := Ideal) v3 v6 v11 (ix2 r j))) := by
  unfold k0_pay10
  generalize k0_pay9 (F := Ideal) v3 v6 v11 = A
  refine (maximumf_apply _ _ _).trans (congrArg (max (v13 (ix2 r 0))) ?_)
  refine (Cert.ColRowBroadcast.colCast_apply _ _ r 0).trans ?_
  exact Cert.RowSoftmax.laneMax_apply A _ _ _ r

/-- The new running sum. -/
theorem pay13_apply (v3 : Vec Ideal S1024x1024 .bf16) (v6 : Vec Ideal S1x1024 .f32) (v11 : Vec Ideal S1024x1024 .bf16)
    (v13 v22 : Vec Ideal S1024x1 .f32) (r : Fin 1024) :
    k0_pay13 (F := Ideal) v3 v6 v11 v13 v22 (ix2 r (0 : Fin 1))
      = k0_pay12 (F := Ideal) v3 v6 v11 v13 (ix2 r 0) * v22 (ix2 r 0)
        + ∑ j : Fin 1024, k0_pay11 (F := Ideal) v3 v6 v11 v13 (ix2 r j) := by
  unfold k0_pay13
  generalize k0_pay12 (F := Ideal) v3 v6 v11 v13 = a
  generalize k0_pay11 (F := Ideal) v3 v6 v11 v13 = p
  refine (congrFun (shapeCast_self _ _) _).trans ?_
  refine (addf_apply _ _ _).trans ?_
  refine congrArg₂ (· + ·) (mulf_apply _ _ _) ?_
  refine (Cert.ColRowBroadcast.colCast_apply _ _ r 0).trans ?_
  exact Cert.RowSoftmax.laneSum_apply p _ _ _ r

/-- The new accumulator. -/
theorem pay14_apply (v3 : Vec Ideal S1024x1024 .bf16) (v6 : Vec Ideal S1x1024 .f32) (v11 : Vec Ideal S1024x1024 .bf16)
    (v13 : Vec Ideal S1024x1 .f32) (v30 : Vec Ideal S1024x1024 .f32) (r c : Fin 1024) :
    k0_pay14 (F := Ideal) v3 v6 v11 v13 v30 (ix2 r c)
      = k0_pay12 (F := Ideal) v3 v6 v11 v13 (ix2 r 0) * v30 (ix2 r c)
        + ∑ j : Fin 1024, k0_pay11 (F := Ideal) v3 v6 v11 v13 (ix2 r j) * v3 (ix2 j c) := by
  unfold k0_pay14
  rw [pay8_eq]
  generalize k0_pay12 (F := Ideal) v3 v6 v11 v13 = a
  generalize k0_pay11 (F := Ideal) v3 v6 v11 v13 = p
  refine (addf_apply _ _ _).trans ?_
  refine congrArg₂ (· + ·) ?_ ?_
  · refine (mulf_apply _ _ _).trans ?_
    exact congrArg (· * v30 (ix2 r c)) (Cert.ColRowBroadcast.colBroadcast_apply _ _ r c)
  · refine (matmulPlain_apply _ v3 r c).trans ?_
    exact Finset.sum_congr rfl fun k _ =>
      congrArg (· * v3 (ix2 k c)) (truncf_apply (φ := .f32) (ψ := .bf16) p bitsLt_bf16_f32 (ix2 r k))

/-! ## The output -/

/-- The accumulator over the running sum. -/
theorem pay3_apply (v45 : Vec Ideal S1024x1024 .f32) (v46 : Vec Ideal S1024x1 .f32) (r c : Fin 1024) :
    k0_pay3 (F := Ideal) v45 v46 (ix2 r c) = Ideal.div (v45 (ix2 r c)) (v46 (ix2 r (0 : Fin 1))) := by
  unfold k0_pay3
  refine (divf_apply _ _ _).trans ?_
  exact congrArg (Ideal.div (v45 (ix2 r c))) (Cert.ColRowBroadcast.colBroadcast_apply _ _ r c)

end Cert.KernelIdeal.Pay

end
-- ==== Proof.KIInv.lean ====
/-
  The kernel's buffers after each grid point are the running softmax of the point's query rows.

  Point `t` of the 8 × 8 grid meets key tile `t % 8` of query tile `t / 8`. For row `r` of the query tile — row
  `1024 · (t / 8) + r` of the input — the cached query row is the projected row scaled by 1/32, the scores against the
  key tile are the `(t % 8)`-th block of the row's scaled scores, and the value rows are the same rows of the input. So
  the running maximum, the running sum and the running weighted sums the body keeps are, after point `t`, the running
  softmax's after `t % 8 + 1` blocks; and at the last key tile the output window holds the weighted sums over the sum.
-/
import proofs.«127219_j65481071402447_2_alg».proof.Proof.KIState
import proofs.«127219_j65481071402447_2_alg».proof.Proof.KIBlocks
import proofs.«127219_j65481071402447_2_alg».proof.Proof.OnlineAttend
import proofs.«127219_j65481071402447_2_alg».proof.Proof.KIPayloads

noncomputable section

open scoped BigOperators

namespace Cert.KernelIdeal.Inv

open Cert.KernelIdeal Cert.KernelIdeal.Gen Cert.KernelIdeal.Attn Cert.KernelIdeal.Blocks Cert.KernelIdeal.Pay
open Cert.Attn Cert.Online Cert.RowSoftmax
open Idealize.ShloMosaic Idealize.ShloMosaic.TcCoe Idealize.ShloMosaic.ValueIdx

/-! ## One key tile, over any blocks -/

/-- Row `r` of the buffers after `K` key tiles of query row `i`: the cached query row is the scaled query, and the running
    maximum, sum and weighted sums are the running softmax's after `K` blocks. -/
def Holds (X : SX.Idx → EReal) (R : SR.Idx → EReal) (e : SE.Idx → EReal)
    (acc : Vec Ideal S1024x1024 .f32) (mx l : Vec Ideal S1024x1 .f32) (q : Vec Ideal S1024x1024 .bf16)
    (i : Fin 8192) (K : ℕ) (r : Fin 1024) : Prop :=
  (∀ d : Fin 1024, q (ix2 r d) = query X R i d * Ideal.ofBits .f32 0x3D000000#32)
  ∧ mx (ix2 r (0 : Fin 1)) = runMax (scoreK X R e i) K
  ∧ l (ix2 r (0 : Fin 1)) = runSum (scoreK X R e i) K
  ∧ ∀ cc : Fin 1024, acc (ix2 r cc) = runAcc (scoreK X R e i) (valK X) cc K

section Step

variable (X : SX.Idx → EReal) (R : SR.Idx → EReal) (e : SE.Idx → EReal)
  (v3 : Vec Ideal S1024x1024 .bf16) (v6 : Vec Ideal S1x1024 .f32) (q : Vec Ideal S1024x1024 .bf16)
  (mx l : Vec Ideal S1024x1 .f32) (acc : Vec Ideal S1024x1024 .f32)
  (i : Fin 8192) (k : ℕ) (r : Fin 1024)

/-- The projected and scaled block at (r, d), when row `r` of the first block is row `i` of `X` and the second is `R`. -/
theorem proj_apply (v45 v47 : Vec Ideal S1024x1024 .bf16) (h45 : ∀ k : Fin 1024, v45 (ix2 r k) = X (ix2 i k))
    (h47 : ∀ k d : Fin 1024, v47 (ix2 k d) = R (ix2 k d)) (d : Fin 1024) :
    k0_pay4 (F := Ideal) v45 v47 (ix2 r d) = query X R i d * Ideal.ofBits .f32 0x3D000000#32 := by
  refine (pay4_apply v45 v47 r d).trans ?_
  unfold query
  exact congrArg (· * Ideal.ofBits .f32 0x3D000000#32) (Finset.sum_congr rfl fun k _ => by rw [h45 k, h47 k d])

/-- The scores of the tile at (r, j): the `k`-th block of the scaled scores of query row `i`. -/
theorem score_apply (hq : ∀ d : Fin 1024, q (ix2 r d) = query X R i d * Ideal.ofBits .f32 0x3D000000#32)
    (h3 : ∀ j d : Fin 1024, v3 (ix2 j d) = X (ix2 (rowOf k j) d)) (h6 : ∀ d : Fin 1024, v6 (ix2 (0 : Fin 1) d) = e (ix1 d))
    (j : Fin 1024) : k0_pay9 (F := Ideal) v3 v6 q (ix2 r j) = scoreK X R e i k j := by
  refine (pay9_apply v3 v6 q r j).trans ?_
  unfold scoreK key
  exact Finset.sum_congr rfl fun d _ => by rw [hq d, h3 j d, h6 d]

variable (s : ℕ → Fin 1024 → EReal) (x : ℕ → Fin 1024 → Fin 1024 → EReal)

/-- The new running maximum. -/
theorem step_max (hs : ∀ j : Fin 1024, k0_pay9 (F := Ideal) v3 v6 q (ix2 r j) = s k j)
    (hmx : mx (ix2 r (0 : Fin 1)) = runMax s k) :
    k0_pay10 (F := Ideal) v3 v6 q mx (ix2 r (0 : Fin 1)) = runMax s (k + 1) := by
  refine (pay10_apply v3 v6 q mx r).trans ?_
  rw [hmx, show (fun j : Fin 1024 => k0_pay9 (F := Ideal) v3 v6 q (ix2 r j)) = s k from funext hs]
  rfl

/-- The rescaling factor of the old sums. -/
theorem step_scale (hs : ∀ j : Fin 1024, k0_pay9 (F := Ideal) v3 v6 q (ix2 r j) = s k j)
    (hmx : mx (ix2 r (0 : Fin 1)) = runMax s k) :
    k0_pay12 (F := Ideal) v3 v6 q mx (ix2 r (0 : Fin 1)) = Ideal.exp (runMax s k - runMax s (k + 1)) := by
  refine (pay12_apply v3 v6 q mx r).trans ?_
  rw [hmx, step_max v3 v6 q mx k r s hs hmx]

/-- The shifted exponentials of the tile's scores. -/
theorem step_exp (hs : ∀ j : Fin 1024, k0_pay9 (F := Ideal) v3 v6 q (ix2 r j) = s k j)
    (hmx : mx (ix2 r (0 : Fin 1)) = runMax s k) (j : Fin 1024) :
    k0_pay11 (F := Ideal) v3 v6 q mx (ix2 r j) = Ideal.exp (s k j - runMax s (k + 1)) := by
  refine (pay11_apply v3 v6 q mx r j).trans ?_
  rw [hs j, step_max v3 v6 q mx k r s hs hmx]

/-- The new running sum. -/
theorem step_sum (hs : ∀ j : Fin 1024, k0_pay9 (F := Ideal) v3 v6 q (ix2 r j) = s k j)
    (hmx : mx (ix2 r (0 : Fin 1)) = runMax s k) (hl : l (ix2 r (0 : Fin 1)) = runSum s k) :
    k0_pay13 (F := Ideal) v3 v6 q mx l (ix2 r (0 : Fin 1)) = runSum s (k + 1) := by
  refine (pay13_apply v3 v6 q mx l r).trans ?_
  rw [step_scale v3 v6 q mx k r s hs hmx, hl]
  show _ = Ideal.exp (runMax s k - runMax s (k + 1)) * runSum s k + ∑ j : Fin 1024, Ideal.exp (s k j - runMax s (k + 1))
  exact congrArg _ (Finset.sum_congr rfl fun j _ => step_exp v3 v6 q mx k r s hs hmx j)

/-- The new running weighted sums. -/
theorem step_acc (hs : ∀ j : Fin 1024, k0_pay9 (F := Ideal) v3 v6 q (ix2 r j) = s k j)
    (hmx : mx (ix2 r (0 : Fin 1)) = runMax s k) (hx : ∀ j cc : Fin 1024, v3 (ix2 j cc) = x k j cc) (cc : Fin 1024)
    (hacc : acc (ix2 r cc) = runAcc s x cc k) :
    k0_pay14 (F := Ideal) v3 v6 q mx acc (ix2 r cc) = runAcc s x cc (k + 1) := by
  refine (pay14_apply v3 v6 q mx acc r cc).trans ?_
  rw [step_scale v3 v6 q mx k r s hs hmx, hacc]
  show _ = Ideal.exp (runMax s k - runMax s (k + 1)) * runAcc s x cc k
    + ∑ j : Fin 1024, Ideal.exp (s k j - runMax s (k + 1)) * x k j cc
  exact congrArg _ (Finset.sum_congr rfl fun j _ => by rw [step_exp v3 v6 q mx k r s hs hmx j, hx j cc])

/-- Before the first key tile: −∞, 0, 0. -/
theorem holds_zero (hq : ∀ d : Fin 1024, q (ix2 r d) = query X R i d * Ideal.ofBits .f32 0x3D000000#32) (hk : k = 0) :
    Holds X R e (k0_pay7 (F := Ideal)) (k0_pay5 (F := Ideal)) (k0_pay6 (F := Ideal)) q i k r := by
  subst hk
  refine ⟨hq, ?_, ?_, fun cc => ?_⟩
  · exact (pay5_apply r).trans negInf_eq_bot
  · exact (pay6_apply r).trans Ideal.ofBits_zero_f32
  · exact (pay7_apply r cc).trans Ideal.ofBits_zero_f32

/-- One key tile takes the buffers after `k` tiles to the buffers after `k + 1`. -/
theorem holds_step (h3 : ∀ j d : Fin 1024, v3 (ix2 j d) = X (ix2 (rowOf k j) d))
    (h6 : ∀ d : Fin 1024, v6 (ix2 (0 : Fin 1) d) = e (ix1 d)) (hp : Holds X R e acc mx l q i k r) :
    Holds X R e (updAcc v3 v6 q mx acc) (updMax v3 v6 q mx) (updSum v3 v6 q mx l) q i (k + 1) r := by
  obtain ⟨hq, hmx, hl, hacc⟩ := hp
  have hs : ∀ j : Fin 1024, k0_pay9 (F := Ideal) v3 v6 q (ix2 r j) = scoreK X R e i k j :=
    score_apply X R e v3 v6 q i k r hq h3 h6
  refine ⟨hq, ?_, ?_, fun cc => ?_⟩
  · show k0_pay2 (F := Ideal) (k0_pay10 (F := Ideal) v3 v6 q mx) (ix2 r (0 : Fin 1)) = _
    rw [pay2_eq]
    exact step_max v3 v6 q mx k r _ hs hmx
  · exact step_sum v3 v6 q mx l k r _ hs hmx hl
  · show k0_pay1 (F := Ideal) (k0_pay14 (F := Ideal) v3 v6 q mx acc) (ix2 r cc) = _
    rw [pay1_eq]
    exact step_acc v3 v6 q mx acc k r _ (valK X) hs hmx (fun j c => h3 j c) cc (hacc cc)

end Step

/-! ## At the points of the grid -/

variable (m : (ℓ : Loc nD τ sig) → Buf (Elt Ideal) ℓ) (c : Dev nD)

/-- The inputs, the rotation and the entangling vector on core `c`. -/
abbrev argX : SX.Idx → EReal := m ((c.tc : Thread nD τ).loc main_arg0)
abbrev argR : SR.Idx → EReal := m ((c.tc : Thread nD τ).loc main_arg1)
abbrev argE : SE.Idx → EReal := m ((c.tc : Thread nD τ).loc main_arg2)

/-- The key tile of point `t` is the `(t % 8)`-th block of rows of the input. -/
theorem keyTile_apply (t : Fin cfg0.N) (j d : Fin 1024) :
    iblk m c 3 t (ix2 j d) = argX m c (ix2 (rowOf (t.val % 8) j) d) :=
  (iblk3_apply m c t j d).trans
    (congrArg (fun J : Fin 8192 => argX m c (ix2 J d)) (rowOf_lt (t.val % 8) (Nat.mod_lt _ (by decide)) j).symm)

/-- The cached query tile after a first key tile. -/
theorem q_first (t : Fin cfg0.N) (r d : Fin 1024) :
    k0_pay4 (F := Ideal) (iblk m c 0 t) (iblk m c 1 t) (ix2 r d) = query (argX m c) (argR m c) (qrow t r) d * Ideal.ofBits .f32 0x3D000000#32 :=
  proj_apply (argX m c) (argR m c) (qrow t r) r (iblk m c 0 t) (iblk m c 1 t) (fun k => iblk0_apply m c t r k)
    (fun k d => iblk1_apply m c t k d) d

/-- THE INVARIANT, by position. -/
theorem inv_aux : ∀ (n : ℕ) (hn : n < cfg0.N) (r : Fin 1024),
    Holds (argX m c) (argR m c) (argE m c) (P m c n hn).2.1 (P m c n hn).2.2.1 (P m c n hn).2.2.2.1 (P m c n hn).2.2.2.2
      (qrow ⟨n, hn⟩ r) (n % 8 + 1) r
  | n, hn, r => by
    by_cases h0 : n % 8 = 0
    · have hP : P m c n hn = pA m c ⟨n, hn⟩ := P_first m c ⟨n, hn⟩ h0
      rw [hP]
      exact holds_step (argX m c) (argR m c) (argE m c) (iblk m c 3 ⟨n, hn⟩) (iblk m c 2 ⟨n, hn⟩) _ _ _ _ (qrow ⟨n, hn⟩ r) (n % 8) r
        (fun j d => keyTile_apply m c ⟨n, hn⟩ j d) (fun d => iblk2_apply m c ⟨n, hn⟩ d)
        (holds_zero (argX m c) (argR m c) (argE m c) _ (qrow ⟨n, hn⟩ r) (n % 8) r (fun d => q_first m c ⟨n, hn⟩ r d) h0)
    · have hlt : n - 1 < cfg0.N := Nat.lt_of_le_of_lt (Nat.sub_le _ _) hn
      have ih := inv_aux (n - 1) hlt r
      have e1 : qrow ⟨n - 1, hlt⟩ r = qrow ⟨n, hn⟩ r := Fin.ext (by
        show 1024 * ((n - 1) / 8) + r.val = 1024 * (n / 8) + r.val
        omega)
      have e2 : (n - 1) % 8 + 1 = n % 8 := by omega
      rw [e1, e2] at ih
      have hstep := holds_step (argX m c) (argR m c) (argE m c) (iblk m c 3 ⟨n, hn⟩) (iblk m c 2 ⟨n, hn⟩) _ _ _ _ (qrow ⟨n, hn⟩ r) (n % 8) r
        (fun j d => keyTile_apply m c ⟨n, hn⟩ j d) (fun d => iblk2_apply m c ⟨n, hn⟩ d) ih
      by_cases h1 : n % 8 = 7
      · have hP : P m c n hn = pC m c ⟨n, hn⟩ (P m c (n - 1) hlt) := P_last m c ⟨n, hn⟩ h0 h1
        rw [hP]
        exact hstep
      · have hP : P m c n hn = pB m c ⟨n, hn⟩ (P m c (n - 1) hlt) := P_middle m c ⟨n, hn⟩ h0 h1
        rw [hP]
        exact hstep
  termination_by n => n
  decreasing_by omega

/-- THE INVARIANT. After point `t`, row `r` of the scratch buffers is the running softmax of query row `qrow t r` after
    `t % 8 + 1` blocks of keys, and the cached query row is the scaled query row. -/
theorem inv (t : Fin cfg0.N) (r : Fin 1024) :
    (∀ d : Fin 1024, (P m c t.val t.isLt).2.2.2.2 (ix2 r d) = query (argX m c) (argR m c) (qrow t r) d * Ideal.ofBits .f32 0x3D000000#32)
    ∧ (P m c t.val t.isLt).2.2.1 (ix2 r (0 : Fin 1)) = runMax (scoreK (argX m c) (argR m c) (argE m c) (qrow t r)) (t.val % 8 + 1)
    ∧ (P m c t.val t.isLt).2.2.2.1 (ix2 r (0 : Fin 1)) = runSum (scoreK (argX m c) (argR m c) (argE m c) (qrow t r)) (t.val % 8 + 1)
    ∧ ∀ cc : Fin 1024, (P m c t.val t.isLt).2.1 (ix2 r cc) = runAcc (scoreK (argX m c) (argR m c) (argE m c) (qrow t r)) (valK (argX m c)) cc (t.val % 8 + 1) := by
  obtain ⟨n, hn⟩ := t
  exact inv_aux m c n hn r

/-- At a last key tile the output window holds the weighted sums over the running sum, after all eight blocks. -/
theorem out_entry (t : Fin cfg0.N) (h7 : t.val % 8 = 7) (r cc : Fin 1024) :
    (P m c t.val t.isLt).1 (ix2 r cc)
      = Ideal.div (runAcc (scoreK (argX m c) (argR m c) (argE m c) (qrow t r)) (valK (argX m c)) cc 8) (runSum (scoreK (argX m c) (argR m c) (argE m c) (qrow t r)) 8) := by
  obtain ⟨-, -, hl, hacc⟩ := inv m c t r
  have h0 : ¬t.val % 8 = 0 := by omega
  have hP := P_last m c t h0 h7
  rw [h7] at hl hacc
  rw [hP] at hl hacc ⊢
  refine (pay3_apply _ _ r cc).trans ?_
  exact congrArg₂ Ideal.div (hacc cc) hl

end Cert.KernelIdeal.Inv

end
-- ==== Proof.KICover.lean ====
/-
  The output window over the 8 × 8 grid: what a block of it reads, and that the written-back blocks tile the array.

  The output is 8192 × 1024 in eight blocks of 1024 rows; point `t` holds block `t / 8`, and writes it back exactly when
  `t % 8 = 7`. Entry (r, c) of point `t`'s block is entry `(1024 · (t / 8) + r, c)` of the array, and row `i` of the
  array lies in the block written back at point `8 · (i / 1024) + 7`: every index is covered.
-/
import proofs.«127219_j65481071402447_2_alg».proof.Proof.KIBlocks
import proofs.«127219_j65481071402447_2_alg».proof.Proof.Gen.KernelIdeal.Points
import Idealize.ShloMosaic.Lib.Pipeline.Value

noncomputable section

namespace Cert.KernelIdeal.Blocks

open Cert.KernelIdeal Cert.KernelIdeal.Gen Cert.KernelIdeal.Attn
open Idealize.ShloMosaic Idealize.ShloMosaic.TcCoe Idealize.ShloMosaic.ValueIdx

/-- The output's block index at point `t` is `(t / 8, 0)`. -/
theorem idx4 : ∀ t : Fin cfg0.N, win0_4.index t (0 : Fin 2) = t.val / 8 ∧ win0_4.index t (1 : Fin 2) = 0 :=
  (by decide +kernel : ∀ t : Fin grid0.N, _)

/-- The output is written back exactly at the last key tile of each query tile. -/
theorem flush_iff (t : Fin cfg0.N) : (cfg0.win 4).flush t = true ↔ t.val % 8 = 7 := flush0_4 t

/-- An array read through point `t`'s output block, at (r, c): the array at row `1024 · (t / 8) + r`, column `c`. -/
theorem out_read (c : Dev nD) (G : Buf (Elt Ideal) ((cfg0.win 4).arr.view.loc (c.tc : Thread nD τ))) (t : Fin cfg0.N)
    (r cc : Fin 1024) :
    ((cfg0.win 4).blk t).view.read (Elt Ideal) G (ix2 r cc) = G (ix2 (qrow t r) cc) := by
  obtain ⟨e0, e1⟩ := idx4 t
  rw [View.read_apply]
  show G (((cfg0.win 4).blk t).view.emb (ix2 r cc)) = _
  refine congrArg G (funext fun a => Fin.ext ?_)
  match a with
  | ⟨0, _⟩ => show win0_4.index t (0 : Fin 2) * 1024 + 1 * r.val = 1024 * (t.val / 8) + r.val; rw [e0]; omega
  | ⟨1, _⟩ => show win0_4.index t (1 : Fin 2) * 1024 + 1 * cc.val = cc.val; rw [e1]; omega

/-- An index of the array is in point `t`'s block iff each coordinate is in the block's range on its axis. -/
theorem mem_blk4 (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Row `i` of the array is in the block of the point `8 · (i / 1024) + 7`, which writes back. -/
theorem cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have h64 : 8 * ((i 0).val / 1024) + 7 < 64 := by omega
  obtain ⟨t, ht⟩ : ∃ t : Fin cfg0.N, t.val = 8 * ((i 0).val / 1024) + 7 := ⟨⟨_, h64.trans_eq N_0.symm⟩, rfl⟩
  obtain ⟨e0, e1⟩ := idx4 t
  refine ⟨t, (flush_iff t).2 (by omega), ?_⟩
  rw [mem_blk4]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- The written-back blocks cover the output array. -/
theorem out_cover (c : Dev nD) : ∀ i : ((cfg0.win 4).arr.view.loc (c.tc : Thread nD τ)).2.ty.Idx,
    ∃ t : Fin cfg0.N, (cfg0.win 4).flush t = true ∧ i ∈ ((cfg0.win 4).blk t).view.set :=
  fun i => cover i

/-- A point that writes back is the last key tile of its query tile: `t = 8 · (t / 8) + 7`. -/
theorem flush_decomp (t : Fin cfg0.N) (h : (cfg0.win 4).flush t = true) : t.val = 8 * (t.val / 8) + 7 := by
  have := (flush_iff t).1 h
  omega

end Cert.KernelIdeal.Blocks

end
-- ==== Proof.KIValue.lean ====
/-
  The attention kernel's result array, at the ideal instance: every entry is the softmax-weighted sum of the input
  rows that the reference computes.

  The output window is written back at the last key tile of each query tile. What it holds there is, entry by entry,
  the running weighted sum over the running sum after eight key tiles; for finite inputs that is the softmax of the
  whole row of scores against the rows of the input. The eight written blocks tile the result array.
-/
import proofs.«127219_j65481071402447_2_alg».proof.Proof.KIPieces
import proofs.«127219_j65481071402447_2_alg».proof.Proof.KILaunch
import proofs.«127219_j65481071402447_2_alg».proof.Proof.KIInv
import proofs.«127219_j65481071402447_2_alg».proof.Proof.KICover
import proofs.«127219_j65481071402447_2_alg».proof.Proof.OnlineAttend

noncomputable section

namespace Cert.KernelIdeal.Value

open Cert.KernelIdeal Cert.KernelIdeal.Gen Cert.KernelIdeal.Attn Cert.KernelIdeal.Blocks Cert.KernelIdeal.Inv
open Idealize.ShloMosaic Idealize.ShloMosaic.TcCoe Idealize.ShloMosaic.ValueIdx Idealize.SL.Sem
open Cert.LibRealEntries
open Idealize.ShloMosaic.Pipeline (Dat)

variable (m : (ℓ : Loc nD τ sig) → Buf (Elt Ideal) ℓ) (ρ : Dev nD → PrngReg)

/-- The specification at the three argument arrays of core `c`. -/
abbrev spec (c : Dev nD) : S8192x1024.Idx → EReal :=
  Cert.Attn.attend (m ((c.tc : Thread nD τ).loc main_arg0)) (m ((c.tc : Thread nD τ).loc main_arg1)) (m ((c.tc : Thread nD τ).loc main_arg2))

/-- What a last key tile writes back is its block of the specification. -/
theorem flushed_eq (c : Dev nD)
    (hX : ∀ y, IsReal (m ((c.tc : Thread nD τ).loc main_arg0) y)) (hR : ∀ y, IsReal (m ((c.tc : Thread nD τ).loc main_arg1) y))
    (he : ∀ y, IsReal (m ((c.tc : Thread nD τ).loc main_arg2) y))
    (t : Fin cfg0.N) (hf : (cfg0.win 4).flush t = true) :
    (dats m 0 c).flushed 4 t = ((cfg0.win 4).blk t).view.read (Elt Ideal) (spec m c) := by
  have h7 : t.val % 8 = 7 := (flush_iff t).mp hf
  show (cfg0.win 4).cut (grid0.coords t) ((dats m 0 c).after 4 t) = _
  rw [after0_4, outsAt0_eq_P]
  funext j
  obtain ⟨r, cc, rfl⟩ : ∃ (r : Fin 1024) (cc : Fin 1024), j = ix2 r cc := ⟨j 0, j 1, eq_ix2 j⟩
  show (P m c t.val t.isLt).1 (ix2 r cc) = _
  rw [out_entry m c t h7 r cc, out_read c _ t r cc]
  exact Cert.Attn.online_attend _ _ _ hX hR he _ _

/-- The result array after the run is the specification. -/
theorem final (c : Dev nD)
    (hX : ∀ y, IsReal (m ((c.tc : Thread nD τ).loc main_arg0) y)) (hR : ∀ y, IsReal (m ((c.tc : Thread nD τ).loc main_arg1) y))
    (he : ∀ y, IsReal (m ((c.tc : Thread nD τ).loc main_arg2) y)) :
    (dats m 0 c).arrAt 4 cfg0.N = spec m c :=
  (dats m 0 c).arrAt_eq_of_cover 4 (spec m c) (fun t hf => flushed_eq m c hX hR he t hf) (out_cover c)

/-- THE VALUE RUN: for finite inputs the result array ends at the specification, the arguments unchanged. -/
theorem run (h : ∀ c : Dev nD, (∀ y, IsReal (m ((c.tc : Thread nD τ).loc main_arg0) y)) ∧ (∀ y, IsReal (m ((c.tc : Thread nD τ).loc main_arg1) y))
      ∧ (∀ y, IsReal (m ((c.tc : Thread nD τ).loc main_arg2) y))) :
    θ_run defs (onTc (τ := τ) (main (F := Ideal))) ⟨m, fun _ => 0, ρ⟩ (fun r => ∀ c : Dev nD,
      r.2.mem ((c.tc : Thread nD τ).loc main_v3) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨((hr c).1 4).trans (final m c (h c).1 (h c).2.1 (h c).2.2),
      ((hr c).2 main_arg0 (by decide)).trans (keep_main_arg0 m c),
      ((hr c).2 main_arg1 (by decide)).trans (keep_main_arg1 m c),
      ((hr c).2 main_arg2 (by decide)).trans (keep_main_arg2 m c)⟩) (run_main m ρ)

end Cert.KernelIdeal.Value

end
-- ==== Proof.LibHostRowSoftmax.lean ====
/-
  Softmax along the last axis of a matrix as a host program spells it, read at one element on the extended reals, over
  any sizes: the row maximum by a max-reduction from −∞ (and one more maximum with −∞, which changes nothing), cast to a
  column and broadcast back, subtracted; the exponential; the row sum by an add-reduction from zero, cast and broadcast
  back; the quotient. At (p, q) the whole expression is the softmax of row p at q.
-/
import Idealize.ShloMosaic.PureOps.Ideal.Laws
import Idealize.ShloMosaic.Lib.ValueIdx
import Idealize.ShloMosaic.Lib.Pipeline.Value
import proofs.«127219_j65481071402447_2_alg».proof.Proof.LibRowSoftmax

noncomputable section

open scoped BigOperators

namespace Cert.HostRowSoftmax

open Idealize.ShloMosaic Idealize.ShloMosaic.ValueIdx Cert.RowSoftmax

/-- The host's max-reduction over the last of two axes, from an initial value, at row p: the fold of `max` from the
    initial value over that row. -/
theorem hostRowFold_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun l : Fin b => x (ix2 p l)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

/-- The host's add-reduction over the last of two axes, from the zero word, at row p: the sum of that row. -/
theorem hostRowSum_apply {a b : ℕ} (x : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduceAdd x (constant (F := Ideal) ⟨0, ![]⟩ .f32 0x00000000#32) h' hu (ix1 p) = ∑ l : Fin b, x (ix2 p l) := by
  simp only [Host.reduceAdd, Ideal.hostReduceAdd_def]
  rw [Ideal.hostReduceAdd_single h' h]
  rw [constant_apply, Ideal.ofBits_zero_f32, zero_add]
  refine Finset.sum_congr rfl fun l _ => congrArg x (funext fun e => Fin.ext ?_)
  match e with
  | ⟨0, _⟩ => rfl
  | ⟨1, _⟩ => rfl

/-- A vector of `a` entries laid as a column [a, 1] and then along the lanes to [a, b] by two `broadcast_in_dim`s reads,
    at (p, q), entry p. -/
theorem keepdimsCol_apply {α : Type} {a b : ℕ} (u : (⟨1, ![a]⟩ : Shape).Idx → α)
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    broadcastInDim ⟨2, ![a, b]⟩ ![0, 1] b2 (broadcastInDim ⟨2, ![a, 1]⟩ ![0] b1 u) (ix2 p q) = u (ix1 p) := by
  refine (broadcastInDim_apply _ b2 _ (ix2 p q) (ix2 p (0 : Fin 1)) fun c => ?_).trans ?_
  · match c with
    | ⟨0, _⟩ =>
      show p.val = if a = 1 then 0 else p.val
      split
      · have := p.isLt; omega
      · rfl
    | ⟨1, _⟩ => exact (if_pos rfl).symm
  · refine broadcastInDim_apply _ b1 u (ix2 p (0 : Fin 1)) (ix1 p) fun c => ?_
    match c with
    | ⟨0, _⟩ =>
      show p.val = if a = 1 then 0 else p.val
      split
      · have := p.isLt; omega
      · rfl

/-- The row maximum as the host takes it — the max-reduction from −∞, then the maximum with −∞ broadcast from rank
    zero — at row p: the row's greatest entry. -/
theorem hostRowMax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![]) (p : Fin a) :
    maximumf (broadcastInDim ⟨1, ![a]⟩ ![] b0 (constant (F := Ideal) ⟨0, ![]⟩ .f32 0xFF800000#32))
        (Host.reduce FloatOps.maximumf s (constant (F := Ideal) ⟨0, ![]⟩ .f32 0xFF800000#32) h' hu) (ix1 p)
      = rowMax (fun l : Fin b => s (ix2 p l)) := by
  have e1 : broadcastInDim ⟨1, ![a]⟩ ![] b0 (constant (F := Ideal) ⟨0, ![]⟩ .f32 0xFF800000#32) (ix1 p)
      = Ideal.ofBits .f32 0xFF800000#32 :=
    broadcastInDim_apply ![] b0 (constant (F := Ideal) ⟨0, ![]⟩ .f32 0xFF800000#32) (ix1 p) (fun e => e.elim0) (fun e => e.elim0)
  rw [maximumf_apply, e1, max_negInf, hostRowFold_apply s _ h' h hu p, constant_apply]
  unfold rowMax
  rfl

/-- The host's exponential of a difference at an index. -/
theorem hostExpSub_apply {t : Shape} (s B : FVec Ideal t .f32) (i : t.Idx) :
    Host.exp (subf s B) i = Ideal.exp (s i - B i) := rfl

/-- The host's quotient at an index. -/
theorem hostDivf_apply {t : Shape} (u v : FVec Ideal t .f32) (i : t.Idx) :
    Host.divf u v i = Ideal.div (u i) (v i) := rfl

/-- The host's whole softmax expression at (p, q): the softmax of row p at q. -/
theorem hostSoftmax_apply {a b : ℕ} (s : FVec Ideal ⟨2, ![a, b]⟩ .f32)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (b0 : (⟨0, ![]⟩ : Shape).BroadcastsInDim ⟨1, ![a]⟩ ![])
    (b1 : (⟨1, ![a]⟩ : Shape).BroadcastsInDim ⟨2, ![a, 1]⟩ ![0])
    (b2 : (⟨2, ![a, 1]⟩ : Shape).BroadcastsInDim ⟨2, ![a, b]⟩ ![0, 1]) (p : Fin a) (q : Fin b) :
    Host.divf
        (Host.exp (subf s (broadcastInDim ⟨2, ![a, b]⟩ ![0, 1] b2 (broadcastInDim ⟨2, ![a, 1]⟩ ![0] b1
          (maximumf (broadcastInDim ⟨1, ![a]⟩ ![] b0 (constant (F := Ideal) ⟨0, ![]⟩ .f32 0xFF800000#32))
            (Host.reduce FloatOps.maximumf s (constant (F := Ideal) ⟨0, ![]⟩ .f32 0xFF800000#32) h' hu))))))
        (broadcastInDim ⟨2, ![a, b]⟩ ![0, 1] b2 (broadcastInDim ⟨2, ![a, 1]⟩ ![0] b1
          (Host.reduceAdd (Host.exp (subf s (broadcastInDim ⟨2, ![a, b]⟩ ![0, 1] b2 (broadcastInDim ⟨2, ![a, 1]⟩ ![0] b1
            (maximumf (broadcastInDim ⟨1, ![a]⟩ ![] b0 (constant (F := Ideal) ⟨0, ![]⟩ .f32 0xFF800000#32))
              (Host.reduce FloatOps.maximumf s (constant (F := Ideal) ⟨0, ![]⟩ .f32 0xFF800000#32) h' hu))))))
            (constant (F := Ideal) ⟨0, ![]⟩ .f32 0x00000000#32) h' hu))) (ix2 p q)
      = softmax2 s (ix2 p q) := by
  have hsub : ∀ k : Fin b, Host.exp (subf s (broadcastInDim ⟨2, ![a, b]⟩ ![0, 1] b2 (broadcastInDim ⟨2, ![a, 1]⟩ ![0] b1
        (maximumf (broadcastInDim ⟨1, ![a]⟩ ![] b0 (constant (F := Ideal) ⟨0, ![]⟩ .f32 0xFF800000#32))
          (Host.reduce FloatOps.maximumf s (constant (F := Ideal) ⟨0, ![]⟩ .f32 0xFF800000#32) h' hu))))) (ix2 p k)
      = Ideal.exp (s (ix2 p k) - rowMax (fun l : Fin b => s (ix2 p l))) := fun k => by
    rw [hostExpSub_apply, keepdimsCol_apply, hostRowMax_apply s h' h hu b0 p]
  rw [softmax2_ix2]
  unfold rowSoftmax
  rw [hostDivf_apply, keepdimsCol_apply, hostRowSum_apply _ h' h hu p, hsub q]
  exact congrArg _ (Finset.sum_congr rfl fun k _ => hsub k)

end Cert.HostRowSoftmax

end
-- ==== Proof.RefSide.lean ====
/-
  The reference program's result, read as the attention function of its three argument arrays.

  The reference computes, one operation at a time: the query rows `X · R`; the key rows, `X` scaled feature by feature
  by `e` (the vector laid along the rows by two broadcasts); their pairwise dot products divided by `√1024`; a softmax
  along each row of that score matrix (row maximum from −∞, shifted exponentials, row sum, quotient); and the product
  of the softmax matrix with `X`. Read at one element each stage is the textbook expression, and entry `(p, q)` of the
  result is `∑ k, softmax (scores of row p) k · X (k, q)`: the specification's `attend`.
-/
import proofs.«127219_j65481071402447_2_alg».proof.Proof.Gen.ReferenceIdeal.Read
import proofs.«127219_j65481071402447_2_alg».proof.Proof.Spec
import proofs.«127219_j65481071402447_2_alg».proof.Proof.LibHostRowSoftmax

noncomputable section

open scoped BigOperators

namespace Cert.Attn.Ref

open Idealize.ShloMosaic Idealize.ShloMosaic.ValueIdx Cert.RowSoftmax
open Cert.ReferenceIdeal Cert.ReferenceIdeal.Gen Cert.ReferenceIdeal.Read
open Idealize.ShloMosaic.TcCoe Idealize.SL.Sem Idealize.ShloMosaic.StableHlo

variable (x0 : (⟨S8192x1024, .f32⟩ : BufTy).Contents (Elt Ideal))
  (x1 : (⟨S1024x1024, .f32⟩ : BufTy).Contents (Elt Ideal))
  (x2 : (⟨S1024, .f32⟩ : BufTy).Contents (Elt Ideal))

/-- The first product at (p, d): row `p` of `X` against column `d` of the rotation — the query. -/
theorem query_apply (p : Fin 8192) (d : Fin 1024) :
    val_main_v0 (F := Ideal) x0 x1 (ix2 p d) = Cert.Attn.query x0 x1 p d := by
  rw [val_main_v0_apply]
  unfold Cert.Attn.query
  refine Finset.sum_congr rfl fun k _ => ?_
  have el : lidx_main_v0 (ix2 p d) k = ix2 p k := funext fun a => by
    match a with
    | ⟨0, _⟩ => rfl
    | ⟨1, _⟩ => rfl
  have er : ridx_main_v0 (ix2 p d) k = ix2 k d := funext fun a => by
    match a with
    | ⟨0, _⟩ => rfl
    | ⟨1, _⟩ => rfl
  rw [el, er]

/-- The scaled input at (j, d): `X (j, d) · e d` — the key. -/
theorem key_apply (j : Fin 8192) (d : Fin 1024) :
    val_main_v3 (F := Ideal) x0 x2 (ix2 j d) = Cert.Attn.key x0 x2 j d := by
  rw [val_main_v3_apply, val_main_v2_apply, val_main_v1_apply]
  have e1 : idx_main_v1 (idx_main_v2 (ix2 j d)) = ix1 d := funext fun a => by
    match a with
    | ⟨0, _⟩ => rfl
  rw [e1]
  rfl

/-- The score matrix at (p, j): the dot product of query row `p` and key row `j`, over `√1024`. -/
theorem logits_apply (p j : Fin 8192) :
    val_main_v7 (F := Ideal) x0 x1 x2 (ix2 p j) = Cert.Attn.logits x0 x1 x2 p j := by
  rw [val_main_v7_apply, val_main_v6_apply, val_main_v5_apply, val_main_cst_apply, val_main_v4_apply]
  unfold Cert.Attn.logits
  refine congrArg (fun s => Ideal.div s (Ideal.sqrt (Ideal.ofBits .f32 0x44800000#32))) (Finset.sum_congr rfl fun d _ => ?_)
  have el : lidx_main_v4 (ix2 p j) d = ix2 p d := funext fun a => by
    match a with
    | ⟨0, _⟩ => rfl
    | ⟨1, _⟩ => rfl
  have er : ridx_main_v4 (ix2 p j) d = ix2 j d := funext fun a => by
    match a with
    | ⟨0, _⟩ => rfl
    | ⟨1, _⟩ => rfl
  rw [el, er, query_apply, key_apply]

/-- The normalized matrix at (p, k): the softmax of row `p` of the score matrix, at `k`. -/
theorem softmax_apply (p k : Fin 8192) :
    val_main_v18 (F := Ideal) x0 x1 x2 (ix2 p k) = softmax2 (val_main_v7 (F := Ideal) x0 x1 x2) (ix2 p k) := by
  unfold val_main_v18 val_main_v17 val_main_v16 val_main_v15 val_main_v14 val_main_v13 val_main_v12 val_main_v11
    val_main_v10 val_main_v9 val_main_v8 val_main_cst_0 val_main_cst_1 val_main_cst_2
  exact Cert.HostRowSoftmax.hostSoftmax_apply (a := 8192) (b := 8192) (val_main_v7 (F := Ideal) x0 x1 x2)
    reducesTo_S8192x8192_S8192_d1 (by decide) h_S_ bcast_S_S8192 bcast_S8192_S8192x1_0 bcast_S8192x1_S8192x8192_0_1 p k

/-- The reference's result is the attention function of its arguments. -/
theorem ref_eq_attend : val_main_v19 (F := Ideal) x0 x1 x2 = Cert.Attn.attend x0 x1 x2 := by
  funext i
  obtain ⟨p, q, rfl⟩ : ∃ (p : Fin 8192) (q : Fin 1024), i = ix2 p q := ⟨i 0, i 1, eq_ix2 i⟩
  rw [val_main_v19_apply, Cert.Attn.attend_ix2]
  refine Finset.sum_congr rfl fun k _ => ?_
  have el : lidx_main_v19 (ix2 p q) k = ix2 p k := funext fun a => by
    match a with
    | ⟨0, _⟩ => rfl
    | ⟨1, _⟩ => rfl
  have er : ridx_main_v19 (ix2 p q) k = ix2 k q := funext fun a => by
    match a with
    | ⟨0, _⟩ => rfl
    | ⟨1, _⟩ => rfl
  have erow : (fun k' : Fin 8192 => val_main_v7 (F := Ideal) x0 x1 x2 (ix2 p k'))
      = fun j' : Fin 8192 => Cert.Attn.logits x0 x1 x2 p j' := funext fun j' => logits_apply x0 x1 x2 p j'
  rw [el, er, softmax_apply, softmax2_ix2, erow]

/-- The generated run of the reference, restated: every execution ends with the result array holding the attention
    function of the three argument arrays' launch contents, and the arguments unchanged. -/
theorem run_attend (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = Cert.Attn.attend (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).1.trans (val_main_v19_eq _ _ _)).trans (ref_eq_attend _ _ _), (h c).2⟩)
    (Cert.ReferenceIdeal.Value.run (F := Ideal) m ρ)

end Cert.Attn.Ref

end
-- ==== Proof.Finite.lean ====
/-
  The precondition "every entry of the three inputs is finite", read back on the extended reals.

  The predicate is the conjunction of three reductions by `and`, one per input, of the element test
  `|x| < +∞` (the absolute value `max x (-x)` against the word `0x7F800000`, which denotes `+∞`). When the predicate
  is `1`, each reduction is `1`, so every element test is `1`; and an extended real whose absolute value is below
  `+∞` is neither `+∞` nor `−∞`: it is a real number.
-/
import proofs.«127219_j65481071402447_2_alg».proof.Pre_finite_inputs
import proofs.«127219_j65481071402447_2_alg».proof.Proof.LibRealEntries
import Idealize.ShloMosaic.Lib.ReduceAll
import Idealize.ShloMosaic.Lib.ValueIdx

noncomputable section

namespace Cert.Attn

open Idealize.ShloMosaic Idealize.ShloMosaic.ValueIdx Cert.LibRealEntries

/-- The scalar shape has a single index. -/
instance subsingleton_scalarIdx : Subsingleton Cert.Pre_finite_inputs.S_.Idx :=
  ⟨fun a b => funext fun d => d.elim0⟩

/-- An extended real whose absolute value `max x (-x)` lies below `+∞` is a real number. -/
theorem isReal_of_abs_lt_top (x : EReal) (h : max x (-x) < ⊤) : IsReal x := by
  induction x using EReal.rec with
  | bot => simp at h
  | coe r => exact ⟨r, rfl⟩
  | top => simp at h

/-- The element test of the predicate: when the comparison `|x| < 0x7F800000` gives `1`, `x` is a real number. -/
theorem isReal_of_test (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine isReal_of_abs_lt_top x ?_
  by_contra hn
  simp [Ideal.cmp, hn] at h'

variable [Cert.Pre_finite_inputs.Facts]

/-- When the finiteness predicate of the three inputs is `1`, every entry of each input is a real number. -/
theorem real_of_pre (X : (⟨Cert.Pre_finite_inputs.S8192x1024, .f32⟩ : BufTy).Contents (Elt Ideal))
    (R : (⟨Cert.Pre_finite_inputs.S1024x1024, .f32⟩ : BufTy).Contents (Elt Ideal))
    (e : (⟨Cert.Pre_finite_inputs.S1024, .f32⟩ : BufTy).Contents (Elt Ideal))
    (h : Cert.Pre_finite_inputs.fn (F := Ideal) X R e = fun _ => 1#1) :
    (∀ i, IsReal (X i)) ∧ (∀ i, IsReal (R i)) ∧ (∀ i, IsReal (e i)) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact isReal_of_test (X i) (Host.reduce_andi_all _ _ _ _ _ h0' i)
  · exact isReal_of_test (R i) (Host.reduce_andi_all _ _ _ _ _ h1 i)
  · exact isReal_of_test (e i) (Host.reduce_andi_all _ _ _ _ _ h2 i)

end Cert.Attn

end
-- ==== Proof.lean ====
/-
  A flash-attention kernel against plain attention, at the ideal instance.

  The kernel tiles the 8192 query rows and the 8192 key rows by 1024 and meets the key tiles of a query tile one after
  the other, keeping a running maximum, a running sum of exponentials and running weighted sums of the input rows
  (the running softmax), with the scale 1/32 = 1/√1024 folded into the cached query tile; the reference forms the whole
  8192 × 8192 matrix of scores, divides by √1024, takes a softmax of each row and multiplies by the input. On finite
  inputs every score is a real number, the rescaling law exp a · exp b = exp (a + b) turns the running sums into the
  sums shifted by the final maximum, and a common real factor moves out of a finite sum: the two results are equal
  entry by entry. The frames: the kernel's run is read off its body's three cases (first, middle and last key tile of a
  query tile) over the launch in which the input array is staged through two windows; the reference's run is generated.
-/
import proofs.«127219_j65481071402447_2_alg».proof.Defs
import proofs.«127219_j65481071402447_2_alg».proof.Proof.Gen.Kernel
import proofs.«127219_j65481071402447_2_alg».proof.Proof.Gen.KernelIdeal
import proofs.«127219_j65481071402447_2_alg».proof.Proof.Gen.ReferenceIdeal
import proofs.«127219_j65481071402447_2_alg».proof.Proof.Gen.Pre_finite_inputs
import proofs.«127219_j65481071402447_2_alg».proof.Proof.KLaunch
import proofs.«127219_j65481071402447_2_alg».proof.Proof.KIValue
import proofs.«127219_j65481071402447_2_alg».proof.Proof.RefSide
import proofs.«127219_j65481071402447_2_alg».proof.Proof.Finite
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Attn.frame m ρ,
  fun m ρ _ => Cert.KernelIdeal.Attn.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.KernelIdeal.Value.spec m c,
      Cert.KernelIdeal.Value.run m ρ (fun c => Cert.Attn.real_of_pre _ _ _ (hpre c)),
      (θ_run Cert.ReferenceIdeal.defs _ _).mono
        (fun _ h c => ⟨by rw [(h c).1, (hagree c).1, (hagree c).2.1, (hagree c).2.2], (h c).2⟩)
        (Cert.Attn.Ref.run_attend m' ρ')⟩⟩

end Cert.Proof

end
